-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x2 : Shape := ⟨2, ![512, 2]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S32768x512 .f32) (main_arg1 : IVec S32768x512 32) (main_arg2 : FVec F S512x2 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x2 .f32 := Host.absf main_arg2
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  let main_c_2 : IVec S_ 32 := constantI S_ 32 0#32
  let main_v9 : IVec S32768x512 32 := broadcastInDim S32768x512 ![] bcast_S_S32768x512 main_c_2
  let main_v10 : IVec S32768x512 1 := cmpi .eq main_arg1 main_v9
  let main_c_3 : IVec S_ 32 := constantI S_ 32 1#32
  let main_v11 : IVec S32768x512 32 := broadcastInDim S32768x512 ![] bcast_S_S32768x512 main_c_3
  let main_v12 : IVec S32768x512 1 := cmpi .eq main_arg1 main_v11
  let main_v13 : IVec S32768x512 1 := ori main_v10 main_v12
  let main_c_4 : IVec S_ 1 := constantI S_ 1 1#1
  let main_v14 : IVec S_ 1 := (fun x v => Host.reduce IntOp.andi x v reducesTo_S32768x512_S_d0_1 h_S_) main_v13 main_c_4
  let main_v15 : IVec S_ 1 := andi main_v8 main_v14
  main_v15
-- ==== Kernel.lean ====
abbrev S32768x512 : Shape := ⟨2, ![32768, 512]⟩
abbrev S512x2 : Shape := ⟨2, ![512, 2]⟩
abbrev S512x1 : Shape := ⟨2, ![512, 1]⟩
abbrev S512 : Shape := ⟨1, ![512]⟩
abbrev S_ : Shape := ⟨0, ![]⟩
abbrev S1x512 : Shape := ⟨2, ![1, 512]⟩
abbrev S2048x256 : Shape := ⟨2, ![2048, 256]⟩
abbrev S1x256 : Shape := ⟨2, ![1, 256]⟩
abbrev S256 : Shape := ⟨1, ![256]⟩

abbrev nBuf : Space → Nat
  | .hbm => 21
  | .vmem => 13
  | .smem => 0
  | _ => 0

abbrev bufTy : (tb : Table) → Fin (tcTables nBuf tb) → BufTy
  | .hbm, ⟨0, _⟩ => ⟨S32768x512, .f32⟩
  | .hbm, ⟨1, _⟩ => ⟨S32768x512, .i32⟩
  | .hbm, ⟨2, _⟩ => ⟨S512x2, .f32⟩
  | .hbm, ⟨3, _⟩ => ⟨S512x1, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .i32⟩
  | .local _ .vmem, ⟨3, _⟩ => ⟨S2048x256, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v55 : BitVec 1 := Scalar.cmpi .eq arg1 c15_i32
  let v56 : BitVec 32 := Scalar.extui v55
  let c0_i32_24 : BitVec 32 := 0#32
  let v57 : BitVec 1 := Scalar.cmpi .ne v56 c0_i32_24
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S512x2_S512x1_0_0 : S512x2.Slices ![0, 0] S512x1
  shapeCasts_S512x1_S512 : S512x1.ShapeCasts S512
  bcast_S_S512 : S_.BroadcastsInDim S512 (![] : Fin 0 → Fin S512.rank)
  shapeCasts_S512_S1x512 : S512.ShapeCasts S1x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x256_S2048x256_0_0 : ∀ a, (![0, 0] : Fin 2 → Nat) a + S2048x256.size a ≤ S2048x256.size a
  h_S2048x256 : 0 < S2048x256.numel
  natLt_1_32 : 1 < 32
  broadcasts_S1x256_S2048x256 : S1x256.Broadcasts S2048x256
  reduces_S2048x256_S256 : S2048x256.Reduces [0] S256
  shapeCasts_S256_S1x256 : S256.ShapeCasts S1x256
  reducesTo_S1x512_S_d0_1 : S1x512.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x512.size a
  hwx0_0 : ∀ i : grid0.Coords, EltTy.bits .f32 = 32 ∨ (Rect.block (s := S32768x512) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S32768x512.size a
  hwx0_1 : ∀ i : grid0.Coords, EltTy.bits .i32 = 32 ∨ (Rect.block (s := S32768x512) S2048x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x512.size a
  hwx0_2 : ∀ i : grid0.Coords, EltTy.bits .f32 = 32 ∨ (Rect.block (s := S1x512) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x512.size a
  hwx0_3 : ∀ i : grid0.Coords, EltTy.bits .f32 = 32 ∨ (Rect.block (s := S1x512) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x512.size a
  hwx0_4 : ∀ i : grid0.Coords, EltTy.bits .f32 = 32 ∨ (Rect.block (s := S1x512) S1x256.size (cc0_transform_4 i) (hinb0_4 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x512 : Shape := ⟨2, ![32768, 512]⟩
abbrev S512x2 : Shape := ⟨2, ![512, 2]⟩
abbrev S512x1 : Shape := ⟨2, ![512, 1]⟩
abbrev S512 : Shape := ⟨1, ![512]⟩
abbrev S_ : Shape := ⟨0, ![]⟩
abbrev S1x512 : Shape := ⟨2, ![1, 512]⟩

abbrev nBuf : Space → Nat
  | .hbm => 92
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .i32⟩
  | .hbm, ⟨2, _⟩ => ⟨S512x2, .f32⟩
  | .hbm, ⟨3, _⟩ => ⟨S512x1, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S_, .i32⟩
  | .hbm, ⟨12, _⟩ => ⟨S32768x512, .i32⟩
  | .hbm, ⟨13, _⟩ => ⟨S32768x512, .i1⟩
  | .hbm, ⟨14, _⟩ => ⟨S32768x512, .f32⟩
  | .hbm, ⟨15, _⟩ => ⟨S_, .i32⟩
  | .hbm, ⟨16, _⟩ => ⟨S32768x512, .i32⟩
  | .hbm, ⟨17, _⟩ => ⟨S32768x512, .i1⟩
  | .hbm, ⟨18, _⟩ => ⟨S32768x512, .f32⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S1x512, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .i1⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S1x512, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S32768x512, .i1⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S_, .f32⟩
  | .hbm, ⟨66, _⟩ => ⟨S512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .i1⟩
  | .hbm, ⟨75, _⟩ => ⟨S_, .f32⟩
  | .hbm, ⟨76, _⟩ => ⟨S512, .f32⟩
  | .hbm, ⟨77, _⟩ => ⟨S512, .i1⟩
  | .hbm, ⟨78, _⟩ => ⟨S512, .i1⟩
  | .hbm, ⟨79, _⟩ => ⟨S512, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .f32⟩
  | .hbm, ⟨85, _⟩ => ⟨S_, .f32⟩
  | .hbm, ⟨86, _⟩ => ⟨S512, .f32⟩
  | .hbm, ⟨87, _⟩ => ⟨S512, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_v26 : Ref sig .tc := ⟨.hbm, 63, rfl⟩
abbrev main_v27 : Ref sig .tc := ⟨.hbm, 64, rfl⟩
abbrev main_cst_6 : Ref sig .tc := ⟨.hbm, 65, rfl⟩
abbrev main_v28 : Ref sig .tc := ⟨.hbm, 66, rfl⟩
abbrev main_cst_7 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_8 : Ref sig .tc := ⟨.hbm, 72, rfl⟩
abbrev main_v33 : Ref sig .tc := ⟨.hbm, 73, rfl⟩
abbrev main_v34 : Ref sig .tc := ⟨.hbm, 74, rfl⟩
abbrev main_cst_9 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_c_10 : Ref sig .tc := ⟨.hbm, 80, rfl⟩
abbrev main_v39 : Ref sig .tc := ⟨.hbm, 81, rfl⟩
abbrev main_c_11 : Ref sig .tc := ⟨.hbm, 82, rfl⟩
abbrev main_v40 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v41 : Ref sig .tc := ⟨.hbm, 87, rfl⟩
abbrev main_cst_13 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩

abbrev nD : Nat := 1
abbrev τ : Topo := Topo.v7x

variable {F : FTy → Type} [FloatOps F]

class Facts₀ : Prop where
  slices_S512x2_S512x1_0_0 : S512x2.Slices ![0, 0] S512x1
  shapeCasts_S512x1_S512 : S512x1.ShapeCasts S512
  bcast_S_S512 : S_.BroadcastsInDim S512 (![] : Fin 0 → Fin S512.rank)
  bcast_S_S32768x512 : S_.BroadcastsInDim S32768x512 (![] : Fin 0 → Fin S32768x512.rank)
  reducesTo_S32768x512_S512_d0 : S32768x512.ReducesTo [0] S512
  h_S_ : 0 < S_.numel
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  natLt_1_32 : 1 < 32
  reducesTo_S512_S_d0 : S512.ReducesTo [0] S_

variable [Facts₀]

class Facts : Prop extends Facts₀ where

variable [Facts]
-- ==== Proof.Spec.lean ====
/-
  The loss both programs compute, written once over the extended reals.

  For a batch of 32768 rows and 512 classes: `pred r j` is the score, `lab r j` the label (a 32-bit word; the
  positive label is the word 1, the negative label the word 0) and `dl j` the class margin.  With
  `softplus x = max x 0 + log (1 + e^(-|x|))`, a class's positive term is the mean over its positive rows of
  `softplus (dl - pred)`, its negative term the mean over its negative rows of `softplus (pred + dl)`; a class
  counts only when it has rows of both labels, and the loss is the mean of the counted classes' sums.

  Two spellings are stated.  The blocked one (`k…`) folds the sign of the score into one softplus argument,
  takes the negative indicator as `1 - positive indicator` and the negative count as `32768 - positive count`,
  and counts the valid classes by summing a 0/1 flag.  The direct one (`r…`) tests the label against 0 for the
  negative indicator, sums it for the negative count, and counts the valid classes as a natural number.
  `Algebra.lean` proves the two equal when every label is 0 or 1.
-/
import Idealize.ShloMosaic.PureOps.Ideal
import Idealize.ShloMosaic.Lib.ValueIdx

noncomputable section

open scoped BigOperators

namespace Cert.Margin

open Idealize.ShloMosaic

/-- The indicator of the positive label, as an extended real. -/
def posm (l : BitVec 32) : EReal := if l = 1#32 then 1 else 0
/-- The indicator of the negative label, as an extended real. -/
def negm (l : BitVec 32) : EReal := if l = 0#32 then 1 else 0

/-- Softplus in the numerically stable spelling both programs use: `max x 0 + log (1 + e^(-|x|))`, with
    `|x| = max x (-x)`. -/
def sp (x : EReal) : EReal := max x 0 + Ideal.log1p (Ideal.exp (-(max x (-x))))

variable (pred : Fin 32768 → Fin 512 → EReal) (lab : Fin 32768 → Fin 512 → BitVec 32) (dl : Fin 512 → EReal)

/-! ## The blocked spelling -/

/-- The one softplus argument: the margin plus the score, negated on a positive row. -/
def kArg (d p : EReal) (l : BitVec 32) : EReal := d + (if l = 1#32 then 0 - p else p)
/-- Class `j`'s sum of softplus over its positive rows. -/
def kS0 (j : Fin 512) : EReal := ∑ r : Fin 32768, sp (kArg (dl j) (pred r j) (lab r j)) * posm (lab r j)
/-- Class `j`'s sum of softplus over its other rows. -/
def kS1 (j : Fin 512) : EReal := ∑ r : Fin 32768, sp (kArg (dl j) (pred r j) (lab r j)) * (1 - posm (lab r j))
/-- Class `j`'s number of positive rows. -/
def kP (j : Fin 512) : EReal := ∑ r : Fin 32768, posm (lab r j)
/-- Class `j`'s number of other rows, as the batch size minus the positive count. -/
def kN (j : Fin 512) : EReal := ((32768 : ℝ) : EReal) - kP lab j
/-- Class `j` has rows of both kinds. -/
abbrev kValid (j : Fin 512) : Prop := 0 < kP lab j ∧ 0 < kN lab j
/-- Class `j`'s contribution: the two means added, or zero when the class does not count. -/
def kVal (j : Fin 512) : EReal :=
  if kValid lab j then Ideal.div (kS0 pred lab dl j) (max (kP lab j) 1) + Ideal.div (kS1 pred lab dl j) (max (kN lab j) 1) else 0
/-- Class `j`'s 0/1 flag. -/
def kFlag (j : Fin 512) : EReal := if kValid lab j then 1 else 0
/-- The loss, blocked spelling. -/
def kOut : EReal := Ideal.div (∑ j : Fin 512, kVal pred lab dl j) (max (∑ j : Fin 512, kFlag lab j) 1)

/-! ## The direct spelling -/

def rS0 (j : Fin 512) : EReal := ∑ r : Fin 32768, sp (dl j - pred r j) * posm (lab r j)
def rS1 (j : Fin 512) : EReal := ∑ r : Fin 32768, sp (pred r j + dl j) * negm (lab r j)
def rP (j : Fin 512) : EReal := ∑ r : Fin 32768, posm (lab r j)
def rN (j : Fin 512) : EReal := ∑ r : Fin 32768, negm (lab r j)
abbrev rValid (j : Fin 512) : Prop := 0 < rP lab j ∧ 0 < rN lab j
def rVal (j : Fin 512) : EReal :=
  if rValid lab j then Ideal.div (rS0 pred lab dl j) (max (rP lab j) 1) + Ideal.div (rS1 pred lab dl j) (max (rN lab j) 1) else 0
/-- The number of classes that count. -/
def rCount : ℕ := (Finset.univ.filter fun j : Fin 512 => rValid lab j).card
/-- The loss, direct spelling. -/
def rOut : EReal := Ideal.div (∑ j : Fin 512, rVal pred lab dl j) (((max (rCount lab) 1 : ℕ) : ℝ) : EReal)

end Cert.Margin

end
-- ==== Proof.Consts.lean ====
/-
  The float constants the two programs spell, as the extended reals their bit patterns denote: `1.0` (the floor of
  both counts, and the top of `1 - positive indicator`) and `32768.0` (the batch size the negative count is taken
  from).  The zero pattern is the library's `Ideal.ofBits_zero_f32`; `0.25` (the power the class sizes are raised
  to) occurs identically on both sides and is never evaluated.
-/
import Idealize.ShloMosaic.PureOps.Ideal

noncomputable section

namespace Cert.Consts

open Idealize.ShloMosaic

/-- `1.0` denotes `1`. -/
theorem ofBits_one : Ideal.ofBits .f32 0x3F800000#32 = 1 := by
  simp [Ideal.ofBits, Ideal.ieee, -EReal.coe_mul]; norm_num

/-- `32768.0` denotes the real `32768`. -/
theorem ofBits_32768 : Ideal.ofBits .f32 0x47000000#32 = ((32768 : ℝ) : EReal) := by
  simp [Ideal.ofBits, Ideal.ieee, -EReal.coe_mul]; norm_num

end Cert.Consts

end
-- ==== Proof.RefValue.lean ====
/-
  The reference program computes the direct spelling of the loss.

  Read one operation at a time, the reference is: two label indicators (the label word compared with 1 and with 0,
  the resulting bit read as a number); the class margin broadcast down the rows; softplus of `margin - score` and
  of `score + margin`, each in the stable spelling `max x 0 + log1p (exp (-|x|))` behind a guard `x ≠ x` that
  never fires over the extended reals; four sums down each class's column; two means with their counts floored at 1;
  a validity bit per class (both counts positive); the sum over the classes of the valid classes' two means; and a
  divisor that is the number of valid classes, counted in 32-bit integers, floored at 1 and read as a real.

  Each step is identified with the matching piece of the direct spelling in `Cert.Margin` (`posm`, `negm`, `sp`,
  `rP`, `rN`, `rS0`, `rS1`, `rValid`, `rVal`, `rCount`), at the inputs read by coordinates: the score and the
  label at row `r` and class `j` are the arrays at the index `(r, j)`, and the margin of class `j` is the
  program's own margin vector at `j`. `ref_value` puts the steps together.

  The integer count is the one step with an argument of its own (`Cert.Count`): a sum of 512 words that are each 0
  or 1 is the word of how many of them are 1, in whatever order they are added; and 512 is far from the end of the
  32-bit range, so that word read signed is that number.
-/
import proofs.«159314_j29618094474149_2_alg».proof.Proof.RefRead
import proofs.«159314_j29618094474149_2_alg».proof.Proof.Spec
import proofs.«159314_j29618094474149_2_alg».proof.Proof.Consts
import Idealize.ShloMosaic.Lib.ValueIdx
import Idealize.ShloMosaic.PureOps.Reduce

namespace Cert.Count

open Idealize.ShloMosaic

/-- Adding up, in 32-bit words, the zero-extensions of a family of bits gives the word of the number of bits that
    are one. -/
theorem fold_addi_bits {ι : Type} (S : Finset ι) (b : ι → BitVec 1) :
    S.fold IntOp.addi 0#32 (fun k => (b k).setWidth 32) = BitVec.ofNat 32 (S.filter fun k => b k = 1#1).card := by
  classical
  induction S using Finset.induction_on with
  | empty => rfl
  | insert a S ha ih =>
    rw [Finset.fold_insert ha, ih, Finset.filter_insert]
    rcases BitVec.eq_zero_or_eq_one (b a) with h | h
    · rw [h, if_neg (by decide)]
      show (0#1).setWidth 32 + _ = _
      simp
    · rw [h, if_pos rfl, Finset.card_insert_of_notMem (by simp [ha]), BitVec.ofNat_add]
      exact BitVec.add_comm _ _

/-- An integer sum, from the word 0, of zero-extended bits over every operand index (every index reduces into the
    result index `j`) is the word of the number of bits that are one: addition of words commutes and associates, so
    the sum's order is immaterial. -/
theorem reduce_addi_bits {s t u : Shape} {axes : List (Fin s.rank)} (b : s.Idx → BitVec 1) (init : u.Idx → BitVec 32)
    (h : s.ReducesTo axes t) (hu : 0 < u.numel) (hinit : init (Shape.Idx.first hu) = 0#32) (j : t.Idx)
    (hall : ∀ i, h.drop i = j) :
    Host.reduce IntOp.addi (fun i => (b i).setWidth 32) init h hu j
      = BitVec.ofNat 32 (Finset.univ.filter fun i => b i = 1#1).card := by
  rw [Host.reduce_eq_fold, Finset.filter_true_of_mem (fun i _ => hall i), hinit]
  exact fold_addi_bits _ b

/-- A count of at most 512 is far below half the 32-bit range: read signed, its word is the count. -/
theorem toInt_ofNat_small (n : Nat) (hn : n ≤ 512) : (BitVec.ofNat 32 n).toInt = n := by
  have h1 : (BitVec.ofNat 32 n).toNat = n := by
    rw [BitVec.toNat_ofNat]; omega
  rw [BitVec.toInt_eq_toNat_of_lt (by rw [h1]; omega), h1]

/-- The signed maximum of such a word and the word 1 is the word of the larger of the count and 1. -/
theorem maxsi_ofNat (n : Nat) (hn : n ≤ 512) : IntOp.maxsi (BitVec.ofNat 32 n) 1#32 = BitVec.ofNat 32 (max n 1) := by
  unfold IntOp.maxsi
  have h1 : (1#32 : BitVec 32).toInt = 1 := by decide
  simp only [BitVec.slt, toInt_ofNat_small n hn, h1, decide_eq_true_eq]
  by_cases h : (1 : Int) < n
  · rw [if_pos h, max_eq_left (by omega)]
  · rw [if_neg h, max_eq_right (by omega)]

end Cert.Count

noncomputable section

open scoped BigOperators

namespace Cert.Margin

open Cert.ReferenceIdeal Cert.ReferenceIdeal.ReadP Idealize.ShloMosaic Idealize.ShloMosaic.ValueIdx

variable (x0 : (⟨S32768x512, .f32⟩ : BufTy).Contents (Elt Ideal)) (x1 : (⟨S32768x512, .i32⟩ : BufTy).Contents (Elt Ideal))
  (x2 : (⟨S512x2, .f32⟩ : BufTy).Contents (Elt Ideal))

/-! ## Indices by coordinates -/

theorem idx_v12 (j : Fin 512) (k : Fin 32768) : idx_main_v12 (ix1 j) k = ix2 k j :=
  funext fun a => Fin.ext (by match a with | ⟨0, _⟩ => rfl | ⟨1, _⟩ => rfl)
theorem idx_v13 (j : Fin 512) (k : Fin 32768) : idx_main_v13 (ix1 j) k = ix2 k j :=
  funext fun a => Fin.ext (by match a with | ⟨0, _⟩ => rfl | ⟨1, _⟩ => rfl)
theorem idx_v19 (j : Fin 512) (k : Fin 32768) : idx_main_v19 (ix1 j) k = ix2 k j :=
  funext fun a => Fin.ext (by match a with | ⟨0, _⟩ => rfl | ⟨1, _⟩ => rfl)
theorem idx_v28 (j : Fin 512) (k : Fin 32768) : idx_main_v28 (ix1 j) k = ix2 k j :=
  funext fun a => Fin.ext (by match a with | ⟨0, _⟩ => rfl | ⟨1, _⟩ => rfl)

/-! ## The two label indicators -/

/-- The first indicator is 1 exactly on the label word 1. -/
theorem v8_eq (i : S32768x512.Idx) : val_main_v8 (F := Ideal) x1 i = posm (x1 i) := by
  rw [val_main_v8_apply, val_main_v7_apply, val_main_v6_apply, val_main_c_apply]
  show (((IntOp.cmpi .eq (x1 i) 1#32).toNat : ℝ) : EReal) = _
  unfold posm IntOp.cmpi
  by_cases h : x1 i = 1#32
  · simp [h]
  · simp [h]

/-- The second indicator is 1 exactly on the label word 0. -/
theorem v11_eq (i : S32768x512.Idx) : val_main_v11 (F := Ideal) x1 i = negm (x1 i) := by
  rw [val_main_v11_apply, val_main_v10_apply, val_main_v9_apply, val_main_c_1_apply]
  show (((IntOp.cmpi .eq (x1 i) 0#32).toNat : ℝ) : EReal) = _
  unfold negm IntOp.cmpi
  by_cases h : x1 i = 0#32
  · simp [h]
  · simp [h]

/-! ## The two softplus arguments and the two softplus calls -/

/-- Nothing differs from itself: the unordered-or-unequal comparison of a value with itself is the bit 0. -/
theorem cmp_une_self (y : EReal) : Ideal.cmp .une y y = 0#1 := by simp [Ideal.cmp]

/-- The first argument: the class margin, broadcast down the rows, minus the score. -/
theorem v16_eq (r : Fin 32768) (j : Fin 512) :
    val_main_v16 (F := Ideal) x0 x2 (ix2 r j) = val_main_v5 (F := Ideal) x2 (ix1 j) - x0 (ix2 r j) := by
  rw [val_main_v16_apply, val_main_v15_apply, val_main_v14_apply]
  have : idx_main_v14 (idx_main_v15 (ix2 r j)) = ix1 j :=
    funext fun a => Fin.ext (by match a with | ⟨0, _⟩ => rfl)
  rw [this]; rfl

/-- The second argument: the score plus the class margin. -/
theorem v25_eq (r : Fin 32768) (j : Fin 512) :
    val_main_v25 (F := Ideal) x0 x2 (ix2 r j) = x0 (ix2 r j) + val_main_v5 (F := Ideal) x2 (ix1 j) := by
  rw [val_main_v25_apply, val_main_v24_apply, val_main_v23_apply]
  have : idx_main_v23 (idx_main_v24 (ix2 r j)) = ix1 j :=
    funext fun a => Fin.ext (by match a with | ⟨0, _⟩ => rfl)
  rw [this]; rfl

/-- The first call is softplus of its argument: the guard against a value unequal to itself never fires, and
    subtracting the zero constant changes nothing. -/
theorem v17_eq (i : S32768x512.Idx) :
    val_main_v17 (F := Ideal) x0 x2 i = sp (val_main_v16 (F := Ideal) x0 x2 i) := by
  simp only [val_main_v17_apply, val_main_call0_v4_apply, val_main_call0_v11_apply, val_main_call0_v1_apply,
    val_main_call0_v10_apply, val_main_call0_v9_apply, val_main_call0_v8_apply, val_main_call0_v7_apply,
    val_main_call0_v3_apply, val_main_call0_v0_apply, val_main_call0_v2_apply, val_main_call0_cst_apply]
  generalize val_main_v16 (F := Ideal) x0 x2 i = y
  simp only [Ideal.cmpf_def, Ideal.subf_def, Ideal.addf_def, Ideal.maximumf_def, Ideal.hostUnary_exp_def,
    Ideal.hostUnary_log1p_def, Ideal.hostNegf_def, Ideal.hostAbsf_def, Ideal.negf_def, Ideal.absf_def,
    Ideal.ofBits_def, Ideal.ofBits_zero_f32, sub_zero, cmp_une_self, select_zero]
  rfl

/-- The second call likewise. -/
theorem v26_eq (i : S32768x512.Idx) :
    val_main_v26 (F := Ideal) x0 x2 i = sp (val_main_v25 (F := Ideal) x0 x2 i) := by
  simp only [val_main_v26_apply, val_main_call1_v4_apply, val_main_call1_v11_apply, val_main_call1_v1_apply,
    val_main_call1_v10_apply, val_main_call1_v9_apply, val_main_call1_v8_apply, val_main_call1_v7_apply,
    val_main_call1_v3_apply, val_main_call1_v0_apply, val_main_call1_v2_apply, val_main_call1_cst_apply]
  generalize val_main_v25 (F := Ideal) x0 x2 i = y
  simp only [Ideal.cmpf_def, Ideal.subf_def, Ideal.addf_def, Ideal.maximumf_def, Ideal.hostUnary_exp_def,
    Ideal.hostUnary_log1p_def, Ideal.hostNegf_def, Ideal.hostAbsf_def, Ideal.negf_def, Ideal.absf_def,
    Ideal.ofBits_def, Ideal.ofBits_zero_f32, sub_zero, cmp_une_self, select_zero]
  rfl

/-! ## The four column sums -/

/-- The number of positive rows of class `j`. -/
theorem v12_eq (j : Fin 512) :
    val_main_v12 (F := Ideal) x1 (ix1 j) = rP (fun r j => x1 (ix2 r j)) j := by
  rw [val_main_v12_apply, val_main_cst_2_apply]
  simp only [Ideal.ofBits_def, Ideal.ofBits_zero_f32, zero_add, idx_v12, v8_eq]
  rfl

/-- The number of negative rows of class `j`. -/
theorem v13_eq (j : Fin 512) :
    val_main_v13 (F := Ideal) x1 (ix1 j) = rN (fun r j => x1 (ix2 r j)) j := by
  rw [val_main_v13_apply, val_main_cst_3_apply]
  simp only [Ideal.ofBits_def, Ideal.ofBits_zero_f32, zero_add, idx_v13, v11_eq]
  rfl

/-- Class `j`'s softplus sum over its positive rows. -/
theorem v19_eq (j : Fin 512) :
    val_main_v19 (F := Ideal) x0 x1 x2 (ix1 j)
      = rS0 (fun r j => x0 (ix2 r j)) (fun r j => x1 (ix2 r j)) (fun j => val_main_v5 (F := Ideal) x2 (ix1 j)) j := by
  rw [val_main_v19_apply, val_main_cst_4_apply]
  simp only [Ideal.ofBits_def, Ideal.ofBits_zero_f32, zero_add, idx_v19, val_main_v18_apply, Ideal.mulf_def,
    v17_eq, v16_eq, v8_eq]
  rfl

/-- Class `j`'s softplus sum over its negative rows. -/
theorem v28_eq (j : Fin 512) :
    val_main_v28 (F := Ideal) x0 x1 x2 (ix1 j)
      = rS1 (fun r j => x0 (ix2 r j)) (fun r j => x1 (ix2 r j)) (fun j => val_main_v5 (F := Ideal) x2 (ix1 j)) j := by
  rw [val_main_v28_apply, val_main_cst_6_apply]
  simp only [Ideal.ofBits_def, Ideal.ofBits_zero_f32, zero_add, idx_v28, val_main_v27_apply, Ideal.mulf_def,
    v26_eq, v25_eq, v11_eq]
  rfl

/-! ## Per class: the floors, the two means, the validity bit, the contribution -/

theorem v21_eq (j : Fin 512) :
    val_main_v21 (F := Ideal) x1 (ix1 j) = max (rP (fun r j => x1 (ix2 r j)) j) 1 := by
  rw [val_main_v21_apply, val_main_v20_apply, val_main_cst_5_apply, v12_eq]
  simp only [Ideal.maximumf_def, Ideal.ofBits_def, Cert.Consts.ofBits_one]

theorem v30_eq (j : Fin 512) :
    val_main_v30 (F := Ideal) x1 (ix1 j) = max (rN (fun r j => x1 (ix2 r j)) j) 1 := by
  rw [val_main_v30_apply, val_main_v29_apply, val_main_cst_7_apply, v13_eq]
  simp only [Ideal.maximumf_def, Ideal.ofBits_def, Cert.Consts.ofBits_one]

/-- The two means added. -/
theorem v32_eq (j : Fin 512) :
    val_main_v32 (F := Ideal) x0 x1 x2 (ix1 j)
      = Ideal.div (rS0 (fun r j => x0 (ix2 r j)) (fun r j => x1 (ix2 r j)) (fun j => val_main_v5 (F := Ideal) x2 (ix1 j)) j)
            (max (rP (fun r j => x1 (ix2 r j)) j) 1)
        + Ideal.div (rS1 (fun r j => x0 (ix2 r j)) (fun r j => x1 (ix2 r j)) (fun j => val_main_v5 (F := Ideal) x2 (ix1 j)) j)
            (max (rN (fun r j => x1 (ix2 r j)) j) 1) := by
  rw [val_main_v32_apply, val_main_v22_apply, val_main_v31_apply, v19_eq, v21_eq, v28_eq, v30_eq]
  rfl

/-- The validity bit of class `j`: both counts positive. -/
theorem v37_eq (j : Fin 512) :
    val_main_v37 (F := Ideal) x1 (ix1 j) = if rValid (fun r j => x1 (ix2 r j)) j then 1#1 else 0#1 := by
  rw [val_main_v37_apply, val_main_v34_apply, val_main_v36_apply, val_main_v33_apply, val_main_v35_apply,
    val_main_cst_8_apply, val_main_cst_9_apply, v12_eq, v13_eq]
  simp only [Ideal.cmpf_def, Ideal.ofBits_def, Ideal.ofBits_zero_f32]
  show IntOp.andi (BitVec.ofBool (decide (0 < rP (fun r j => x1 (ix2 r j)) j)))
      (BitVec.ofBool (decide (0 < rN (fun r j => x1 (ix2 r j)) j))) = _
  unfold IntOp.andi
  by_cases hp : 0 < rP (fun r j => x1 (ix2 r j)) j <;> by_cases hn : 0 < rN (fun r j => x1 (ix2 r j)) j <;>
    simp [hp, hn]

/-- Class `j`'s contribution: the two means where the class counts, zero elsewhere. -/
theorem v41_eq (j : Fin 512) :
    val_main_v41 (F := Ideal) x0 x1 x2 (ix1 j)
      = rVal (fun r j => x0 (ix2 r j)) (fun r j => x1 (ix2 r j)) (fun j => val_main_v5 (F := Ideal) x2 (ix1 j)) j := by
  rw [val_main_v41_apply, v37_eq, v32_eq, val_main_call2_v1_apply, val_main_call2_v0_apply, val_main_cst_12_apply]
  unfold rVal
  by_cases h : rValid (fun r j => x1 (ix2 r j)) j
  · rw [if_pos h, if_pos h, select_one]
  · rw [if_neg h, if_neg h, select_zero]
    simp only [Ideal.ofBits_def, Ideal.ofBits_zero_f32]

/-! ## The sum over the classes -/

/-- A rank-1 index set is its coordinate range … -/
def idxEquiv1 {n : Nat} : Fin n ≃ (⟨1, ![n]⟩ : Shape).Idx :=
  ⟨fun a => ix1 a, fun i => i 0, fun _ => rfl, fun i => (eq_ix1 i).symm⟩

/-- … so a sum over it is the sum over the coordinate. -/
theorem sum_idx1 {M : Type} [AddCommMonoid M] {n : Nat} (f : (⟨1, ![n]⟩ : Shape).Idx → M) :
    ∑ i, f i = ∑ a : Fin n, f (ix1 a) :=
  (Fintype.sum_equiv idxEquiv1 (fun a => f (ix1 a)) f (fun _ => rfl)).symm

theorem v42_eq :
    val_main_v42 (F := Ideal) x0 x1 x2 ix0
      = ∑ j : Fin 512, rVal (fun r j => x0 (ix2 r j)) (fun r j => x1 (ix2 r j)) (fun j => val_main_v5 (F := Ideal) x2 (ix1 j)) j := by
  rw [val_main_v42_apply, val_main_cst_13_apply, sum_idx1]
  simp only [Ideal.ofBits_def, Ideal.ofBits_zero_f32, zero_add, v41_eq]

/-! ## The number of classes that count -/

theorem rCount_le (lab : Fin 32768 → Fin 512 → BitVec 32) : rCount lab ≤ 512 := by
  unfold rCount
  exact (Finset.card_filter_le _ _).trans (by simp)

/-- The integer sum of the 512 zero-extended validity bits is the word of the number of valid classes. -/
theorem v39_eq :
    val_main_v39 (F := Ideal) x1 ix0 = BitVec.ofNat 32 (rCount (fun r j => x1 (ix2 r j))) := by
  have e := Cert.Count.reduce_addi_bits (fun i => val_main_v37 (F := Ideal) x1 i) (val_main_c_10 (F := Ideal))
    Facts₀.reducesTo_S512_S_d0 Facts₀.h_S_ rfl ix0 (fun i => funext fun a => a.elim0)
  refine Eq.trans ?_ (e.trans (congrArg (BitVec.ofNat 32) ?_))
  · rfl
  · unfold rCount
    refine (Finset.card_equiv idxEquiv1 fun j => ?_).symm
    simp only [Finset.mem_filter, Finset.mem_univ, true_and]
    show rValid (fun r j => x1 (ix2 r j)) j ↔ val_main_v37 (F := Ideal) x1 (ix1 j) = 1#1
    rw [v37_eq]
    by_cases hv : rValid (fun r j => x1 (ix2 r j)) j
    · rw [if_pos hv]; exact iff_of_true hv rfl
    · rw [if_neg hv]; exact iff_of_false hv (by decide)

/-- The divisor: the larger of the number of valid classes and 1, as a real. -/
theorem v43_eq :
    val_main_v43 (F := Ideal) x1 ix0 = (((max (rCount (fun r j => x1 (ix2 r j))) 1 : ℕ) : ℝ) : EReal) := by
  rw [val_main_v43_apply, val_main_v40_apply, val_main_c_11_apply, v39_eq, Cert.Count.maxsi_ofNat _ (rCount_le _)]
  show (((BitVec.ofNat 32 (max (rCount (fun r j => x1 (ix2 r j))) 1)).toInt : ℝ) : EReal) = _
  rw [Cert.Count.toInt_ofNat_small _ (max_le (rCount_le _) (by norm_num)), Int.cast_natCast]

/-! ## The reference's value -/

/-- The reference program's result is the direct spelling of the loss, at its inputs read by coordinates. -/
theorem ref_value (x0 : (⟨S32768x512, .f32⟩ : BufTy).Contents (Elt Ideal)) (x1 : (⟨S32768x512, .i32⟩ : BufTy).Contents (Elt Ideal))
    (x2 : (⟨S512x2, .f32⟩ : BufTy).Contents (Elt Ideal)) :
    val_main_v44 (F := Ideal) x0 x1 x2 ix0
      = rOut (fun r j => x0 (ix2 r j)) (fun r j => x1 (ix2 r j)) (fun j => val_main_v5 (F := Ideal) x2 (ix1 j)) := by
  rw [val_main_v44_apply, v42_eq, v43_eq]
  rfl

end Cert.Margin

end
-- ==== Proof.PreLabels.lean ====
/-
  The precondition, read back at the label array: it is the conjunction of three all-quantified tests, and the
  third says of every entry of the label array that it equals the word 0 or equals the word 1.  A conjunction of
  one-bit words that is 1 has both conjuncts 1; a reduction by `and` into a single result that is 1 met a 1 at every
  operand index; a one-bit `or` that is 1 has a disjunct that is 1; and an equality test that is 1 says its operands
  are equal.  The compared arrays are the constants 0 and 1 broadcast to the array's shape.
-/
import proofs.«159314_j29618094474149_2_alg».proof.Defs
import proofs.«159314_j29618094474149_2_alg».proof.Proof.Gen.Pre_finite_inputs
import Idealize.ShloMosaic.Lib.ReduceAll
import Idealize.ShloMosaic.Lib.ValueIdx

noncomputable section

namespace Cert.Margin

open Idealize.ShloMosaic

/-- Under the precondition every label is the word 0 or the word 1. -/
theorem labels_binary [Cert.Pre_finite_inputs.Facts] {F : FTy → Type} [FloatOps F]
    (a0 : FVec F Cert.Pre_finite_inputs.S32768x512 .f32) (a1 : IVec Cert.Pre_finite_inputs.S32768x512 32)
    (a2 : FVec F Cert.Pre_finite_inputs.S512x2 .f32)
    (h : Cert.Pre_finite_inputs.fn (F := F) a0 a1 a2 = fun _ => 1#1) :
    ∀ i, a1 i = 0#32 ∨ a1 i = 1#32 := by
  intro i
  have e := congrFun h ValueIdx.ix0
  unfold Cert.Pre_finite_inputs.fn at e
  dsimp only at e
  have e14 := (IntOp.andi_eq_one.1 e).2
  -- the rank-0 result shape has one index
  haveI : Subsingleton Cert.Pre_finite_inputs.S_.Idx := ⟨fun a b => funext fun d => d.elim0⟩
  have hi := Host.reduce_andi_all _ _ _ _ _ e14 i
  rcases IntOp.ori_eq_one.1 hi with h0 | h1
  · exact Or.inl (IntOp.cmpi_eq.1 h0)
  · exact Or.inr (IntOp.cmpi_eq.1 h1)

end Cert.Margin

end
-- ==== Proof.KernelPieces.lean ====
/-
  What the kernel body leaves behind at one grid point, read back as values.

  The body keeps three running column sums in scratch rows of 256 lanes: the sum of softplus over the positive rows,
  the sum of softplus over the other rows, and the number of positive rows.  At the first batch tile of a class block
  it stores zeros into the three rows and then adds the tile's column sums; at a later tile it adds the tile's column
  sums to what the tile before left; at the last tile it also forms the block's two outputs (the class contribution
  and the class flag) from the three finished sums.  Each lemma says that what a case leaves in a row is the body's
  arithmetic applied to the tile's three input blocks and, where the row is carried, to what it held before.
-/
import proofs.«159314_j29618094474149_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz : (![0, 0] : Fin 2 → Nat) = fun _ => 0 := funext fun a => by fin_cases a <;> rfl

/-- The tile's new sum of softplus over positive rows, from the old sum `s`. -/
abbrev new0 (x0 : Vec F S2048x256 .f32) (x1 : Vec F S2048x256 .i32) (x2 s : Vec F S1x256 .f32) : Vec F S1x256 .f32 :=
  k0_pay1 (k0_pay15 x0 x1 x2 s)
/-- The tile's new sum of softplus over the other rows, from the old sum `s`. -/
abbrev new1 (x0 : Vec F S2048x256 .f32) (x1 : Vec F S2048x256 .i32) (x2 s : Vec F S1x256 .f32) : Vec F S1x256 .f32 :=
  k0_pay2 (k0_pay13 x1) (k0_pay14 x0 x1 x2) s
/-- The tile's new count of positive rows, from the old count `s`. -/
abbrev new2 (x1 : Vec F S2048x256 .i32) (s : Vec F S1x256 .f32) : Vec F S1x256 .f32 :=
  k0_pay3 (k0_pay12 x1) s

/-! ## A later tile that is not the last -/

theorem sout_B_0 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S2048x256 .f32) (x1 : Vec F S2048x256 .i32) (x2 : Vec F S1x256 .f32) (xs0 xs1 xs2 : Vec F S1x256 .f32) :
    sout0_B_0 c i arg2 harg2 arg3 harg3 arg4 harg4 arg5 harg5 arg6 harg6 arg7 harg7 arg8 harg8 arg9 harg9 hc0 hc1 x0 x1 x2 xs0 xs1 xs2 = new0 x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

theorem sout_B_1 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S2048x256 .f32) (x1 : Vec F S2048x256 .i32) (x2 : Vec F S1x256 .f32) (xs0 xs1 xs2 : Vec F S1x256 .f32) :
    sout0_B_1 c i arg2 harg2 arg3 harg3 arg4 harg4 arg5 harg5 arg6 harg6 arg7 harg7 arg8 harg8 arg9 harg9 hc0 hc1 x0 x1 x2 xs0 xs1 xs2 = new1 x0 x1 x2 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

theorem sout_B_2 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S2048x256 .f32) (x1 : Vec F S2048x256 .i32) (x2 : Vec F S1x256 .f32) (xs0 xs1 xs2 : Vec F S1x256 .f32) :
    sout0_B_2 c i arg2 harg2 arg3 harg3 arg4 harg4 arg5 harg5 arg6 harg6 arg7 harg7 arg8 harg8 arg9 harg9 hc0 hc1 x0 x1 x2 xs0 xs1 xs2 = new2 x1 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

/-! ## The last tile -/

theorem sout_C_0 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S2048x256 .f32) (x1 : Vec F S2048x256 .i32) (x2 : Vec F S1x256 .f32) (xs0 xs1 xs2 : Vec F S1x256 .f32) :
    sout0_C_0 c i arg2 harg2 arg3 harg3 arg4 harg4 arg5 harg5 arg6 harg6 arg7 harg7 arg8 harg8 arg9 harg9 hc0 hc1 x0 x1 x2 xs0 xs1 xs2 = new0 x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

theorem sout_C_1 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S2048x256 .f32) (x1 : Vec F S2048x256 .i32) (x2 : Vec F S1x256 .f32) (xs0 xs1 xs2 : Vec F S1x256 .f32) :
    sout0_C_1 c i arg2 harg2 arg3 harg3 arg4 harg4 arg5 harg5 arg6 harg6 arg7 harg7 arg8 harg8 arg9 harg9 hc0 hc1 x0 x1 x2 xs0 xs1 xs2 = new1 x0 x1 x2 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

theorem sout_C_2 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S2048x256 .f32) (x1 : Vec F S2048x256 .i32) (x2 : Vec F S1x256 .f32) (xs0 xs1 xs2 : Vec F S1x256 .f32) :
    sout0_C_2 c i arg2 harg2 arg3 harg3 arg4 harg4 arg5 harg5 arg6 harg6 arg7 harg7 arg8 harg8 arg9 harg9 hc0 hc1 x0 x1 x2 xs0 xs1 xs2 = new2 x1 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

theorem out_C_3 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S2048x256 .f32) (x1 : Vec F S2048x256 .i32) (x2 : Vec F S1x256 .f32) (xs0 xs1 xs2 : Vec F S1x256 .f32) :
    out0_C_3 c i arg2 harg2 arg3 harg3 arg4 harg4 arg5 harg5 arg6 harg6 arg7 harg7 arg8 harg8 arg9 harg9 hc0 hc1 x0 x1 x2 xs0 xs1 xs2 = k0_pay6 (new2 x1 xs2) (new0 x0 x1 x2 xs0) (new1 x0 x1 x2 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

theorem out_C_4 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S2048x256 .f32) (x1 : Vec F S2048x256 .i32) (x2 : Vec F S1x256 .f32) (xs0 xs1 xs2 : Vec F S1x256 .f32) :
    out0_C_4 c i arg2 harg2 arg3 harg3 arg4 harg4 arg5 harg5 arg6 harg6 arg7 harg7 arg8 harg8 arg9 harg9 hc0 hc1 x0 x1 x2 xs0 xs1 xs2 = k0_pay7 (new2 x1 xs2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

/-! ## The first tile -/

theorem sout_A_0 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S2048x256 .f32) (x1 : Vec F S2048x256 .i32) (x2 : Vec F S1x256 .f32) :
    sout0_A_0 c i arg2 harg2 arg3 harg3 arg4 harg4 arg5 harg5 arg6 harg6 arg7 harg7 arg8 harg8 arg9 harg9 hc0 hc1 x0 x1 x2 = new0 x0 x1 x2 (k0_pay8 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x256) hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

theorem sout_A_1 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S2048x256 .f32) (x1 : Vec F S2048x256 .i32) (x2 : Vec F S1x256 .f32) :
    sout0_A_1 c i arg2 harg2 arg3 harg3 arg4 harg4 arg5 harg5 arg6 harg6 arg7 harg7 arg8 harg8 arg9 harg9 hc0 hc1 x0 x1 x2 = new1 x0 x1 x2 (k0_pay9 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x256) hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

theorem sout_A_2 (c : Dev nD) (i : grid0.Coords) (arg2 : Memref sig .tc .vmem S2048x256 .f32) (harg2 : arg2.IsWhole) (arg3 : Memref sig .tc .vmem S2048x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S2048x256 .f32) (x1 : Vec F S2048x256 .i32) (x2 : Vec F S1x256 .f32) :
    sout0_A_2 c i arg2 harg2 arg3 harg3 arg4 harg4 arg5 harg5 arg6 harg6 arg7 harg7 arg8 harg8 arg9 harg9 hc0 hc1 x0 x1 x2 = new2 x1 (k0_pay10 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x256) hz]
  simp only [View.readCov_unit_zero (S := S1x256) _ hz, View.readAt_eq_ld, harg2.read_unread, harg3.read_unread, harg4.read_unread, harg7.read_unread, harg8.read_unread, harg9.read_unread, View.ld_unit_zero (S := S1x256) hz, View.ld_unit_zero (S := S2048x256) hz]
  try rfl

end Cert.KernelIdeal.Val

end
-- ==== Proof.KernelTile.lean ====
/-
  The kernel body's arithmetic at one lane, over the extended reals.

  For one batch tile (2048 rows) of one class block (256 lanes), with `x0` the scores, `x1` the labels and `x2` the
  block's row of margins: the positive indicator, its complement, the one softplus of the margin plus the signed
  score, the three column sums the tile adds to the running rows, and — from three finished rows — the class
  contribution and the class flag.  Every statement reads a payload of the body at a lane `(0, q)` or an element
  `(p, q)` and says which extended real it is, in the vocabulary of the shared specification.
-/
import proofs.«159314_j29618094474149_2_alg».proof.Proof.Gen.KernelIdeal.Skeleton
import proofs.«159314_j29618094474149_2_alg».proof.Proof.Spec
import proofs.«159314_j29618094474149_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Val

open Cert.KernelIdeal Cert.KernelIdeal.Gen Cert.Margin

/-! ## Words and bits -/

/-- Equality of two words as a bit. -/
theorem cmpi_eq_word (x y : BitVec 32) : IntOp.cmpi .eq x y = if x = y then 1#1 else 0#1 := by
  unfold IntOp.cmpi
  by_cases h : x = y
  · simp [h]
  · rw [if_neg h, beq_eq_false_iff_ne.mpr h]; rfl

/-- A bit widened to a word and read as a signed integer is 1 or 0. -/
theorem sitofp_bit (b : BitVec 1) :
    FloatOps.sitofp (F := Ideal) .f32 (b.setWidth 32) = if b = 1#1 then (1 : EReal) else 0 := by
  rcases BitVec.eq_zero_or_eq_one b with h | h <;> subst h
  · show ((((0#1 : BitVec 1).setWidth 32).toInt : ℝ) : EReal) = _
    have : ((0#1 : BitVec 1).setWidth 32).toInt = 0 := by decide
    rw [this]; simp
  · show ((((1#1 : BitVec 1).setWidth 32).toInt : ℝ) : EReal) = _
    have : ((1#1 : BitVec 1).setWidth 32).toInt = 1 := by decide
    rw [this]; simp

/-- Nothing is unequal to itself: the softplus's not-a-number guard never fires. -/
theorem cmp_one_self (y : EReal) : Ideal.cmp .one y y = 0#1 := by
  simp [Ideal.cmp]

/-- A select on the conjunction of two decided bits is the `if` on the conjunction. -/
theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

/-- The conjunction of two decided bits, as a bit. -/
theorem and_bits (p q : Prop) [Decidable p] [Decidable q] :
    IntOp.andi (BitVec.ofBool (decide p)) (BitVec.ofBool (decide q)) = if p ∧ q then 1#1 else 0#1 := by
  by_cases hp : p <;> by_cases hq : q <;> simp [hp, hq, IntOp.andi]

theorem cmpf_def (p : CmpFPredicate) (x y : EReal) : FloatOps.cmpf (F := Ideal) (φ := .f32) p x y = Ideal.cmp p x y := rfl
theorem cmp_ogt (x y : EReal) : Ideal.cmp .ogt x y = BitVec.ofBool (decide (y < x)) := rfl
theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem absf_apply {s : Shape} {φ : FTy} (a : FVec Ideal s φ) (i : s.Idx) : absf a i = max (a i) (-(a i)) := rfl
theorem cmpi_apply {s : Shape} {w : Nat} (p : CmpIPredicate) (a b : IVec s w) (i : s.Idx) : cmpi p a b i = IntOp.cmpi p (a i) (b i) := rfl
theorem andi_apply {s : Shape} {w : Nat} (a b : IVec s w) (i : s.Idx) : andi a b i = IntOp.andi (a i) (b i) := rfl

/-! ## The indicators and the softplus at an element -/

/-- The positive indicator. -/
theorem pay12_apply (x1 : Vec Ideal S2048x256 .i32) (p : Fin 2048) (q : Fin 256) :
    k0_pay12 (F := Ideal) x1 (ix2 p q) = posm (x1 (ix2 p q)) := by
  unfold k0_pay12 k0_pay11 posm
  simp only [sitofp_apply, extui_apply, cmpi_apply, broadcast_apply]
  rw [sitofp_bit, cmpi_eq_word]
  by_cases h : x1 (ix2 p q) = 1#32
  · simp [h]
  · simp [h]

/-- Its complement. -/
theorem pay13_apply (x1 : Vec Ideal S2048x256 .i32) (p : Fin 2048) (q : Fin 256) :
    k0_pay13 (F := Ideal) x1 (ix2 p q) = 1 - posm (x1 (ix2 p q)) := by
  unfold k0_pay13
  simp only [subf_apply, broadcast_apply]
  rw [pay12_apply]
  show Ideal.ofBits .f32 0x3F800000#32 - _ = _
  rw [Cert.Consts.ofBits_one]

/-- The one softplus: of the margin plus the score, the score negated on a positive row. -/
theorem pay14_apply (x0 : Vec Ideal S2048x256 .f32) (x1 : Vec Ideal S2048x256 .i32) (x2 : Vec Ideal S1x256 .f32)
    (p : Fin 2048) (q : Fin 256) :
    k0_pay14 (F := Ideal) x0 x1 x2 (ix2 p q) = sp (kArg (x2 (ix2 0 q)) (x0 (ix2 p q)) (x1 (ix2 p q))) := by
  unfold k0_pay14 k0_pay11
  simp only [select_apply, cmpf_apply, addf_apply, subf_apply, maximumf_apply, broadcast_apply, exp_apply, log1p_apply,
    absf_apply, cmpi_apply, shapeCast_self, broadcastTo_1b_ab_apply]
  simp only [Ideal.ofBits_def, Ideal.ofBits_zero_f32, cmpf_def, cmp_one_self, select_zero, cmpi_eq_word]
  unfold sp kArg
  by_cases h : x1 (ix2 p q) = 1#32
  · simp only [h, if_true, select_one, sub_zero, zero_sub]
  · simp only [h, if_false, select_zero, sub_zero, zero_sub]

/-! ## The tile's column sums -/

theorem lift_eq (q : Fin 256) (p : Fin 2048) : reduces_S2048x256_S256.lift (ix1 q) p = ix2 p q := by
  funext a
  match a with
  | ⟨0, _⟩ => exact Fin.ext rfl
  | ⟨1, _⟩ => exact Fin.ext rfl

/-- A sum down the 2048 rows of a tile, at lane `q`. -/
theorem colsum_apply (src : FVec Ideal S2048x256 .f32) (hφ : FKind.Formats .f32)
    (hacc : (0x00000000#32 : BitVec 32) = 0x00000000#32) (q : Fin 256) :
    multiReduction .add [0] S256 src 0x00000000#32 reduces_S2048x256_S256 hφ hacc (ix1 q) = ∑ p : Fin 2048, src (ix2 p q) :=
  (Ideal.multiReduction_add_single src 0x00000000#32 reduces_S2048x256_S256 hφ hacc (ix1 q)).trans
    (Finset.sum_congr rfl fun p _ => congrArg src (lift_eq q p))

/-- The positive-row softplus sum after a tile: what the row held plus the tile's column sum. -/
theorem new0_apply (x0 : Vec Ideal S2048x256 .f32) (x1 : Vec Ideal S2048x256 .i32) (x2 s : Vec Ideal S1x256 .f32) (q : Fin 256) :
    k0_pay1 (F := Ideal) (k0_pay15 x0 x1 x2 s) (ix2 0 q)
      = s (ix2 0 q) + ∑ p : Fin 2048, sp (kArg (x2 (ix2 0 q)) (x0 (ix2 p q)) (x1 (ix2 p q))) * posm (x1 (ix2 p q)) := by
  unfold k0_pay1 k0_pay15
  simp only [shapeCast_self, addf_apply]
  rw [shapeCast_a_1a_apply, colsum_apply]
  refine congrArg (s (ix2 0 q) + ·) (Finset.sum_congr rfl fun p _ => ?_)
  rw [mulf_apply, pay14_apply, pay12_apply]

/-- The other-row softplus sum after a tile. -/
theorem new1_apply (x0 : Vec Ideal S2048x256 .f32) (x1 : Vec Ideal S2048x256 .i32) (x2 s : Vec Ideal S1x256 .f32) (q : Fin 256) :
    k0_pay2 (F := Ideal) (k0_pay13 x1) (k0_pay14 x0 x1 x2) s (ix2 0 q)
      = s (ix2 0 q) + ∑ p : Fin 2048, sp (kArg (x2 (ix2 0 q)) (x0 (ix2 p q)) (x1 (ix2 p q))) * (1 - posm (x1 (ix2 p q))) := by
  unfold k0_pay2
  simp only [shapeCast_self, addf_apply]
  rw [shapeCast_a_1a_apply, colsum_apply]
  refine congrArg (s (ix2 0 q) + ·) (Finset.sum_congr rfl fun p _ => ?_)
  rw [mulf_apply, pay14_apply, pay13_apply]

/-- The positive-row count after a tile. -/
theorem new2_apply (x1 : Vec Ideal S2048x256 .i32) (s : Vec Ideal S1x256 .f32) (q : Fin 256) :
    k0_pay3 (F := Ideal) (k0_pay12 x1) s (ix2 0 q) = s (ix2 0 q) + ∑ p : Fin 2048, posm (x1 (ix2 p q)) := by
  unfold k0_pay3
  simp only [shapeCast_self, addf_apply]
  rw [shapeCast_a_1a_apply, colsum_apply]
  refine congrArg (s (ix2 0 q) + ·) (Finset.sum_congr rfl fun p _ => ?_)
  rw [pay12_apply]

/-- The three rows are reset to zero at a class block's first tile. -/
theorem pay8_apply (q : Fin 256) : k0_pay8 (F := Ideal) (ix2 0 q) = 0 := by
  unfold k0_pay8
  simp only [shapeCast_self, broadcast_apply]
  show Ideal.ofBits .f32 0x00000000#32 = 0
  exact Ideal.ofBits_zero_f32
theorem pay9_apply (q : Fin 256) : k0_pay9 (F := Ideal) (ix2 0 q) = 0 := by
  unfold k0_pay9
  simp only [shapeCast_self, broadcast_apply]
  show Ideal.ofBits .f32 0x00000000#32 = 0
  exact Ideal.ofBits_zero_f32
theorem pay10_apply (q : Fin 256) : k0_pay10 (F := Ideal) (ix2 0 q) = 0 := by
  unfold k0_pay10
  simp only [shapeCast_self, broadcast_apply]
  show Ideal.ofBits .f32 0x00000000#32 = 0
  exact Ideal.ofBits_zero_f32

/-! ## The block's two outputs from the finished rows -/

/-- The class contribution: both means added when the class has rows of both kinds, else zero. -/
theorem pay6_apply (P S0 S1 : Vec Ideal S1x256 .f32) (q : Fin 256) :
    k0_pay6 (F := Ideal) P S0 S1 (ix2 0 q)
      = if 0 < P (ix2 0 q) ∧ 0 < ((32768 : ℝ) : EReal) - P (ix2 0 q) then
          Ideal.div (S0 (ix2 0 q)) (max (P (ix2 0 q)) 1) + Ideal.div (S1 (ix2 0 q)) (max (((32768 : ℝ) : EReal) - P (ix2 0 q)) 1)
        else 0 := by
  unfold k0_pay6 k0_pay5 k0_pay4
  simp only [select_apply, cmpf_apply, addf_apply, subf_apply, maximumf_apply, divf_apply, broadcast_apply, andi_apply]
  simp only [Ideal.ofBits_def, Ideal.ofBits_zero_f32, Cert.Consts.ofBits_one, Cert.Consts.ofBits_32768, cmpf_def, cmp_ogt, select_and]

/-- The class flag. -/
theorem pay7_apply (P : Vec Ideal S1x256 .f32) (q : Fin 256) :
    k0_pay7 (F := Ideal) P (ix2 0 q)
      = if 0 < P (ix2 0 q) ∧ 0 < ((32768 : ℝ) : EReal) - P (ix2 0 q) then 1 else 0 := by
  unfold k0_pay7 k0_pay5 k0_pay4
  simp only [sitofp_apply, extui_apply, cmpf_apply, subf_apply, broadcast_apply, andi_apply]
  rw [sitofp_bit]
  simp only [Ideal.ofBits_def, Ideal.ofBits_zero_f32, Cert.Consts.ofBits_32768, cmpf_def, cmp_ogt, and_bits]
  by_cases h : 0 < P (ix2 0 q) ∧ 0 < ((32768 : ℝ) : EReal) - P (ix2 0 q)
  · simp only [h, if_true, and_self]
  · simp only [h, if_false]; simp

end Cert.KernelIdeal.Val

end
-- ==== Proof.LibSegmentSum.lean ====
/-
  Sums over an initial segment of `Fin N`, for accumulations that proceed block by block.

  `segSum g n` is the sum of `g` over the indices below `n`.  The empty segment sums to zero (`segSum_zero`), the
  whole segment is the full sum (`segSum_all`), and a segment extended by a block of `W` indices is the segment's sum
  plus the block's (`segSum_add`): an accumulator that starts at zero and adds one block's sum per step holds, after
  the step that adds the block starting at `a`, the segment sum up to `a + W`, and after the last block the full sum.
  Stated in any commutative additive monoid, so it applies to the extended reals, which are not a group.
-/
import Mathlib.Algebra.BigOperators.Fin

open scoped BigOperators

namespace SegmentSum

variable {M : Type*} [AddCommMonoid M] {N : ℕ}

/-- The sum of `g` over the indices of `Fin N` below `n` (indices from `N` on contribute nothing). -/
def segSum (g : Fin N → M) (n : ℕ) : M :=
  ∑ r ∈ Finset.range n, if h : r < N then g ⟨r, h⟩ else 0

/-- The empty segment sums to zero. -/
theorem segSum_zero (g : Fin N → M) : segSum g 0 = 0 := by
  unfold segSum; rw [Finset.range_zero, Finset.sum_empty]

/-- The whole segment is the full sum. -/
theorem segSum_all (g : Fin N → M) : segSum g N = ∑ r : Fin N, g r := by
  unfold segSum
  rw [Finset.sum_range]
  exact Finset.sum_congr rfl fun i _ => by rw [dif_pos i.isLt]

/-- A segment extended by a block of `W` indices: the segment's sum plus the block's. -/
theorem segSum_add (g : Fin N → M) (a W : ℕ) (h : a + W ≤ N) :
    segSum g (a + W) = segSum g a + ∑ p : Fin W, g ⟨a + p.val, by have := p.isLt; omega⟩ := by
  unfold segSum
  rw [Finset.sum_range_add]
  refine congrArg _ ?_
  rw [Finset.sum_range]
  exact Finset.sum_congr rfl fun p _ => by rw [dif_pos (by have := p.isLt; omega)]

end SegmentSum
-- ==== Proof.KernelAccum.lean ====
/-
  The running rows after each grid point, and the block outputs after a class block's last tile.

  The grid has two class blocks of 256 lanes and, inside each, sixteen batch tiles of 2048 rows; point `n` is tile
  `n % 16` of class block `n / 16`, and lane `q` of that block is class `j = (n / 16) * 256 + q`.  By induction on
  the point, the three running rows hold at lane `q` the sums over the rows below `(n % 16 + 1) * 2048` of class
  `j`'s three per-row summands: the first tile starts from the stored zeros, a later tile adds its 2048 rows to what
  the tile before left.  After the sixteenth tile the sums are complete, and the block's two outputs are the class
  contribution and the class flag of the shared specification.
-/
import proofs.«159314_j29618094474149_2_alg».proof.Proof.Gen.KernelIdeal.Frame
import proofs.«159314_j29618094474149_2_alg».proof.Proof.KernelPieces
import proofs.«159314_j29618094474149_2_alg».proof.Proof.KernelTile
import proofs.«159314_j29618094474149_2_alg».proof.Proof.LibSegmentSum
import proofs.«159314_j29618094474149_2_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Margin SegmentSum

variable (m : (ℓ : Loc nD τ sig) → Buf (Elt Ideal) ℓ) (c : Dev nD)

/-! ## The arrays the region reads, by coordinates -/

/-- The scores. -/
def predA (r : Fin 32768) (j : Fin 512) : EReal := (V m c main_arg0 : S32768x512.Idx → EReal) (ix2 r j)
/-- The labels. -/
def labA (r : Fin 32768) (j : Fin 512) : BitVec 32 := (V m c main_arg1 : S32768x512.Idx → BitVec 32) (ix2 r j)
/-- The margins, one per class. -/
def dlA (j : Fin 512) : EReal := (V m c main_v6 : S1x512.Idx → EReal) (ix2 0 j)

/-- Class `j`'s per-row summands: softplus on a positive row, softplus on another row, the positive indicator. -/
def f0 (j : Fin 512) (r : Fin 32768) : EReal :=
  sp (kArg (dlA m c j) (predA m c r j) (labA m c r j)) * posm (labA m c r j)
def f1 (j : Fin 512) (r : Fin 32768) : EReal :=
  sp (kArg (dlA m c j) (predA m c r j) (labA m c r j)) * (1 - posm (labA m c r j))
def f2 (j : Fin 512) (r : Fin 32768) : EReal := posm (labA m c r j)

/-! ## Where a point's blocks sit in the arrays -/

/-- The block indices of the five windows at point `t`: the batch tile `t % 16` and the class block `t / 16`. -/
theorem idx_facts : ∀ t : Fin cfg0.N,
    win0_0.index t (0 : Fin 2) = t.val % 16 ∧ win0_0.index t (1 : Fin 2) = t.val / 16
    ∧ win0_1.index t (0 : Fin 2) = t.val % 16 ∧ win0_1.index t (1 : Fin 2) = t.val / 16
    ∧ win0_2.index t (0 : Fin 2) = 0 ∧ win0_2.index t (1 : Fin 2) = t.val / 16
    ∧ win0_3.index t (0 : Fin 2) = 0 ∧ win0_3.index t (1 : Fin 2) = t.val / 16
    ∧ win0_4.index t (0 : Fin 2) = 0 ∧ win0_4.index t (1 : Fin 2) = t.val / 16 :=
  (by decide +kernel : ∀ t : Fin grid0.N, _)

/-- The score block at point `t` reads row `(t % 16) * 2048 + p`, class `(t / 16) * 256 + q`. -/
theorem iblk0_apply (t : Fin cfg0.N) (p : Fin 2048) (q : Fin 256) (r : Fin 32768) (j : Fin 512)
    (hr : r.val = t.val % 16 * 2048 + p.val) (hj : j.val = t.val / 16 * 256 + q.val) :
    (iblk m c 0 t : S2048x256.Idx → EReal) (ix2 p q) = predA m c r j := by
  obtain ⟨e0, e1, -⟩ := idx_facts t
  unfold iblk predA
  rw [View.read_apply]
  refine congrArg (V m c main_arg0 : S32768x512.Idx → EReal) (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * q.val = j.val; rw [e1, hj]; omega

/-- The label block likewise. -/
theorem iblk1_apply (t : Fin cfg0.N) (p : Fin 2048) (q : Fin 256) (r : Fin 32768) (j : Fin 512)
    (hr : r.val = t.val % 16 * 2048 + p.val) (hj : j.val = t.val / 16 * 256 + q.val) :
    (iblk m c 1 t : S2048x256.Idx → BitVec 32) (ix2 p q) = labA m c r j := by
  obtain ⟨-, -, e0, e1, -⟩ := idx_facts t
  unfold iblk labA
  rw [View.read_apply]
  refine congrArg (V m c main_arg1 : S32768x512.Idx → BitVec 32) (funext fun a => Fin.ext ?_)
  match a with
  | ⟨0, _⟩ => show win0_1.index t (0 : Fin 2) * 2048 + 1 * p.val = r.val; rw [e0, hr]; omega
  | ⟨1, _⟩ => show win0_1.index t (1 : Fin 2) * 256 + 1 * q.val = j.val; rw [e1, hj]; omega

/-- The margin block reads the one row at class `(t / 16) * 256 + q`. -/
theorem iblk2_apply (t : Fin cfg0.N) (q : Fin 256) (j : Fin 512) (hj : j.val = t.val / 16 * 256 + q.val) :
    (iblk m c 2 t : S1x256.Idx → EReal) (ix2 0 q) = dlA m c j := by
  obtain ⟨-, -, -, -, e0, e1, -⟩ := idx_facts t
  unfold iblk dlA
  rw [View.read_apply]
  refine congrArg (V m c main_v6 : S1x512.Idx → EReal) (funext fun a => Fin.ext ?_)
  match a with
  | ⟨0, _⟩ => show win0_2.index t (0 : Fin 2) * 1 + 1 * 0 = 0; rw [e0]
  | ⟨1, _⟩ => show win0_2.index t (1 : Fin 2) * 256 + 1 * q.val = j.val; rw [e1, hj]; omega

/-! ## One tile's contribution at a lane -/

theorem tile0 (n : ℕ) (h : n < cfg0.N) (q : Fin 256) (j : Fin 512) (hj : j.val = n / 16 * 256 + q.val)
    (hN : n < 32) (s : Vec Ideal S1x256 .f32) :
    new0 (iblk m c 0 (⟨n, h⟩ : Fin cfg0.N)) (iblk m c 1 (⟨n, h⟩ : Fin cfg0.N)) (iblk m c 2 (⟨n, h⟩ : Fin cfg0.N)) s (ix2 0 q)
      = s (ix2 0 q) + ∑ p : Fin 2048, f0 m c j ⟨n % 16 * 2048 + p.val, by have := p.isLt; omega⟩ := by
  refine (new0_apply _ _ _ _ q).trans ?_
  refine congrArg (s (ix2 0 q) + ·) (Finset.sum_congr rfl fun p _ => ?_)
  unfold f0
  rw [iblk0_apply m c (⟨n, h⟩ : Fin cfg0.N) p q ⟨n % 16 * 2048 + p.val, by have := p.isLt; omega⟩ j rfl hj,
    iblk1_apply m c (⟨n, h⟩ : Fin cfg0.N) p q ⟨n % 16 * 2048 + p.val, by have := p.isLt; omega⟩ j rfl hj,
    iblk2_apply m c (⟨n, h⟩ : Fin cfg0.N) q j hj]

theorem tile1 (n : ℕ) (h : n < cfg0.N) (q : Fin 256) (j : Fin 512) (hj : j.val = n / 16 * 256 + q.val)
    (hN : n < 32) (s : Vec Ideal S1x256 .f32) :
    new1 (iblk m c 0 (⟨n, h⟩ : Fin cfg0.N)) (iblk m c 1 (⟨n, h⟩ : Fin cfg0.N)) (iblk m c 2 (⟨n, h⟩ : Fin cfg0.N)) s (ix2 0 q)
      = s (ix2 0 q) + ∑ p : Fin 2048, f1 m c j ⟨n % 16 * 2048 + p.val, by have := p.isLt; omega⟩ := by
  refine (new1_apply _ _ _ _ q).trans ?_
  refine congrArg (s (ix2 0 q) + ·) (Finset.sum_congr rfl fun p _ => ?_)
  unfold f1
  rw [iblk0_apply m c (⟨n, h⟩ : Fin cfg0.N) p q ⟨n % 16 * 2048 + p.val, by have := p.isLt; omega⟩ j rfl hj,
    iblk1_apply m c (⟨n, h⟩ : Fin cfg0.N) p q ⟨n % 16 * 2048 + p.val, by have := p.isLt; omega⟩ j rfl hj,
    iblk2_apply m c (⟨n, h⟩ : Fin cfg0.N) q j hj]

theorem tile2 (n : ℕ) (h : n < cfg0.N) (q : Fin 256) (j : Fin 512) (hj : j.val = n / 16 * 256 + q.val)
    (hN : n < 32) (s : Vec Ideal S1x256 .f32) :
    new2 (iblk m c 1 (⟨n, h⟩ : Fin cfg0.N)) s (ix2 0 q)
      = s (ix2 0 q) + ∑ p : Fin 2048, f2 m c j ⟨n % 16 * 2048 + p.val, by have := p.isLt; omega⟩ := by
  refine (new2_apply _ _ q).trans ?_
  refine congrArg (s (ix2 0 q) + ·) (Finset.sum_congr rfl fun p _ => ?_)
  unfold f2
  rw [iblk1_apply m c (⟨n, h⟩ : Fin cfg0.N) p q ⟨n % 16 * 2048 + p.val, by have := p.isLt; omega⟩ j rfl hj]

/-! ## What a point leaves, from what it found -/

/-- A class block's first tile: the three rows are the tile's sums over the stored zeros. -/
theorem step_first (n : ℕ) (h : n < cfg0.N) (h0 : n % 16 = 0) :
    (outsAt0 m c n h).2.2.1 = new0 (iblk m c 0 (⟨n, h⟩ : Fin cfg0.N)) (iblk m c 1 (⟨n, h⟩ : Fin cfg0.N)) (iblk m c 2 (⟨n, h⟩ : Fin cfg0.N)) (k0_pay8 (F := Ideal))
    ∧ (outsAt0 m c n h).2.2.2.1 = new1 (iblk m c 0 (⟨n, h⟩ : Fin cfg0.N)) (iblk m c 1 (⟨n, h⟩ : Fin cfg0.N)) (iblk m c 2 (⟨n, h⟩ : Fin cfg0.N)) (k0_pay9 (F := Ideal))
    ∧ (outsAt0 m c n h).2.2.2.2 = new2 (iblk m c 1 (⟨n, h⟩ : Fin cfg0.N)) (k0_pay10 (F := Ideal)) := by
  have h1 : ¬ n % 16 = 15 := by omega
  rw [outsAt0_A m c (⟨n, h⟩ : Fin cfg0.N) h0 h1]
  dsimp only
  exact ⟨sout_A_0 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)), sout_A_1 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)), sout_A_2 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N))⟩

/-- A later tile: the three rows are the tile's sums over what the tile before left. -/
theorem step_later (n : ℕ) (h : n < cfg0.N) (h0 : ¬ n % 16 = 0) :
    (outsAt0 m c n h).2.2.1 = new0 (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1
    ∧ (outsAt0 m c n h).2.2.2.1 = new1 (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.2.1
    ∧ (outsAt0 m c n h).2.2.2.2 = new2 (iblk m c 1 (⟨n, h⟩ : Fin cfg0.N)) (outsAt0 m c (n - 1) (Nat.lt_of_le_of_lt (Nat.sub_le _ _) h)).2.2.2.2 := by
  by_cases h1 : n % 16 = 15
  · rw [outsAt0_C m c (⟨n, h⟩ : Fin cfg0.N) h0 h1]
    dsimp only
    exact ⟨sout_C_0 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1 (outsAt0 m c (n - 1) (Nat.lt_of_le_of_lt (Nat.sub_le _ _) h)).2.2.2.1 (outsAt0 m c (n - 1) (Nat.lt_of_le_of_lt (Nat.sub_le _ _) h)).2.2.2.2, sout_C_1 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1 (outsAt0 m c (n - 1) (Nat.lt_of_le_of_lt (Nat.sub_le _ _) h)).2.2.2.1 (outsAt0 m c (n - 1) (Nat.lt_of_le_of_lt (Nat.sub_le _ _) h)).2.2.2.2, sout_C_2 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1 (outsAt0 m c (n - 1) (Nat.lt_of_le_of_lt (Nat.sub_le _ _) h)).2.2.2.1 (outsAt0 m c (n - 1) (Nat.lt_of_le_of_lt (Nat.sub_le _ _) h)).2.2.2.2⟩
  · rw [outsAt0_B m c (⟨n, h⟩ : Fin cfg0.N) h0 h1]
    dsimp only
    exact ⟨sout_B_0 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1 (outsAt0 m c (n - 1) (Nat.lt_of_le_of_lt (Nat.sub_le _ _) h)).2.2.2.1 (outsAt0 m c (n - 1) (Nat.lt_of_le_of_lt (Nat.sub_le _ _) h)).2.2.2.2, sout_B_1 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1 (outsAt0 m c (n - 1) (Nat.lt_of_le_of_lt (Nat.sub_le _ _) h)).2.2.2.1 (outsAt0 m c (n - 1) (Nat.lt_of_le_of_lt (Nat.sub_le _ _) h)).2.2.2.2, sout_B_2 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1 (outsAt0 m c (n - 1) (Nat.lt_of_le_of_lt (Nat.sub_le _ _) h)).2.2.2.1 (outsAt0 m c (n - 1) (Nat.lt_of_le_of_lt (Nat.sub_le _ _) h)).2.2.2.2⟩

/-- The last tile also forms the block's two outputs from the three finished rows. -/
theorem out_last (n : ℕ) (h : n < cfg0.N) (h1 : n % 16 = 15) :
    (outsAt0 m c n h).1 = k0_pay6 (new2 (iblk m c 1 (⟨n, h⟩ : Fin cfg0.N)) (outsAt0 m c (n - 1) (Nat.lt_of_le_of_lt (Nat.sub_le _ _) h)).2.2.2.2) (new0 (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1) (new1 (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.2.1)
    ∧ (outsAt0 m c n h).2.1 = k0_pay7 (new2 (iblk m c 1 (⟨n, h⟩ : Fin cfg0.N)) (outsAt0 m c (n - 1) (Nat.lt_of_le_of_lt (Nat.sub_le _ _) h)).2.2.2.2) := by
  have h0 : ¬ n % 16 = 0 := by omega
  rw [outsAt0_C m c (⟨n, h⟩ : Fin cfg0.N) h0 h1]
  dsimp only
  exact ⟨out_C_3 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1 (outsAt0 m c (n - 1) (Nat.lt_of_le_of_lt (Nat.sub_le _ _) h)).2.2.2.1 (outsAt0 m c (n - 1) (Nat.lt_of_le_of_lt (Nat.sub_le _ _) h)).2.2.2.2, out_C_4 c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (outsAt0 m c (n - 1) (Nat.lt_of_le_of_lt (Nat.sub_le _ _) h)).2.2.1 (outsAt0 m c (n - 1) (Nat.lt_of_le_of_lt (Nat.sub_le _ _) h)).2.2.2.1 (outsAt0 m c (n - 1) (Nat.lt_of_le_of_lt (Nat.sub_le _ _) h)).2.2.2.2⟩

/-! ## The running rows are the segment sums -/

/-- After point `n`, lane `q` of the three rows holds class `j`'s three sums over the rows below `(n % 16 + 1) * 2048`. -/
theorem accum (n : ℕ) : ∀ (h : n < cfg0.N) (q : Fin 256) (j : Fin 512), j.val = n / 16 * 256 + q.val →
    (outsAt0 m c n h).2.2.1 (ix2 0 q) = segSum (f0 m c j) ((n % 16 + 1) * 2048)
    ∧ (outsAt0 m c n h).2.2.2.1 (ix2 0 q) = segSum (f1 m c j) ((n % 16 + 1) * 2048)
    ∧ (outsAt0 m c n h).2.2.2.2 (ix2 0 q) = segSum (f2 m c j) ((n % 16 + 1) * 2048) := by
  induction n using Nat.strong_induction_on with
  | _ n ih =>
    intro h q j hj
    have hN : n < 32 := lt_of_lt_of_eq h (show cfg0.N = 32 from N_0)
    have hseg : ∀ g : Fin 32768 → EReal, segSum g ((n % 16 + 1) * 2048)
        = segSum g (n % 16 * 2048) + ∑ p : Fin 2048, g ⟨n % 16 * 2048 + p.val, by have := p.isLt; omega⟩ := fun g => by
      rw [show (n % 16 + 1) * 2048 = n % 16 * 2048 + 2048 by omega]
      exact segSum_add g (n % 16 * 2048) 2048 (by omega)
    by_cases h0 : n % 16 = 0
    · obtain ⟨e0, e1, e2⟩ := step_first m c n h h0
      have hz : ∀ g : Fin 32768 → EReal, segSum g (n % 16 * 2048) = 0 := fun g => by
        rw [h0, Nat.zero_mul]; exact segSum_zero g
      rw [e0, e1, e2, hseg, hseg, hseg, hz, hz, hz]
      refine ⟨(tile0 m c n h q j hj hN _).trans ?_, (tile1 m c n h q j hj hN _).trans ?_, (tile2 m c n h q j hj hN _).trans ?_⟩
      · rw [pay8_apply]
      · rw [pay9_apply]
      · rw [pay10_apply]
    · obtain ⟨e0, e1, e2⟩ := step_later m c n h h0
      obtain ⟨i0, i1, i2⟩ := ih (n - 1) (by omega) (Nat.lt_of_le_of_lt (Nat.sub_le _ _) h) q j (by omega)
      have hk : ((n - 1) % 16 + 1) * 2048 = n % 16 * 2048 := by omega
      rw [hk] at i0 i1 i2
      rw [e0, e1, e2, hseg, hseg, hseg]
      refine ⟨(tile0 m c n h q j hj hN _).trans ?_, (tile1 m c n h q j hj hN _).trans ?_, (tile2 m c n h q j hj hN _).trans ?_⟩
      · rw [i0]
      · rw [i1]
      · rw [i2]

/-! ## The block outputs after the last tile -/

/-- After a class block's last tile, lane `q` of the block's two outputs holds class `j`'s contribution and flag. -/
theorem out_vals (n : ℕ) (h : n < cfg0.N) (h1 : n % 16 = 15) (q : Fin 256) (j : Fin 512)
    (hj : j.val = n / 16 * 256 + q.val) :
    (outsAt0 m c n h).1 (ix2 0 q) = kVal (predA m c) (labA m c) (dlA m c) j
    ∧ (outsAt0 m c n h).2.1 (ix2 0 q) = kFlag (labA m c) j := by
  have h0 : ¬ n % 16 = 0 := by omega
  obtain ⟨o3, o4⟩ := out_last m c n h h1
  obtain ⟨e0, e1, e2⟩ := step_later m c n h h0
  obtain ⟨a0, a1, a2⟩ := accum m c n h q j hj
  rw [show (n % 16 + 1) * 2048 = 32768 by omega, segSum_all] at a0 a1 a2
  rw [o3, o4, ← e0, ← e1, ← e2]
  refine ⟨(pay6_apply _ _ _ q).trans ?_, (pay7_apply _ q).trans ?_⟩
  · rw [a0, a1, a2]; rfl
  · rw [a2]; rfl

end Cert.KernelIdeal.Val

end
-- ==== Proof.KernelFinal.lean ====
/-
  What the region's two output arrays hold after the run.

  Each class block's outputs are written back once, after the block's last batch tile (point `16 * b + 15` for
  block `b`), into columns `256 * b … 256 * b + 255` of a `[1, 512]` array; the two blocks' column ranges cover the
  array.  So output one ends holding every class's contribution and output two every class's flag.
-/
import proofs.«159314_j29618094474149_2_alg».proof.Proof.KernelAccum

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.Margin

variable (m : (ℓ : Loc nD τ sig) → Buf (Elt Ideal) ℓ) (c : Dev nD)

/-- Every class's contribution, as a `[1, 512]` array. -/
def G3 (i : S1x512.Idx) : EReal := kVal (predA m c) (labA m c) (dlA m c) ⟨(i 1).val, idx2_lt1 i⟩
/-- Every class's flag, as a `[1, 512]` array. -/
def G4 (i : S1x512.Idx) : EReal := kFlag (labA m c) ⟨(i 1).val, idx2_lt1 i⟩

theorem G3_of (i : S1x512.Idx) (j : Fin 512) (h : (i 1).val = j.val) :
    G3 m c i = kVal (predA m c) (labA m c) (dlA m c) j :=
  congrArg (kVal (predA m c) (labA m c) (dlA m c)) (Fin.ext h)
theorem G4_of (i : S1x512.Idx) (j : Fin 512) (h : (i 1).val = j.val) :
    G4 m c i = kFlag (labA m c) j :=
  congrArg (kFlag (labA m c)) (Fin.ext h)

set_option maxRecDepth 200000 in
/-- What point `t` writes back into output one is its block of `G3`. -/
theorem flushed3_eq (t : Fin cfg0.N) (hf : (cfg0.win 3).flush t = true) :
    (dats m 0 c).flushed 3 t = ((cfg0.win 3).blk t).view.read (Elt Ideal) (G3 m c) := by
  have h15 : t.val % 16 = 15 := (flush0_3 t).mp hf
  obtain ⟨-, -, -, -, -, -, e30, e31, e40, e41⟩ := idx_facts t
  have hN : t.val < 32 := lt_of_lt_of_eq t.isLt (show cfg0.N = 32 from N_0)
  have key : ∀ (u : Fin 1) (q : Fin 256), (outsAt0 m c t.val t.isLt).1 (ix2 u q)
      = G3 m c (((cfg0.win 3).blk t).view.emb (ix2 u q)) := by
    intro u q
    obtain rfl : u = 0 := Subsingleton.elim _ _
    have hcol : ((((cfg0.win 3).blk t).view.emb (ix2 (0 : Fin 1) q)) 1).val = t.val / 16 * 256 + q.val := by
      show win0_3.index t (1 : Fin 2) * 256 + 1 * q.val = _
      rw [e31]; omega
    have hq : q.val < 256 := q.isLt
    refine ((out_vals m c t.val t.isLt h15 q ⟨t.val / 16 * 256 + q.val, by omega⟩ rfl).1).trans ?_
    exact (G3_of m c _ _ hcol).symm
  show (cfg0.win 3).cut (grid0.coords t) ((dats m 0 c).after 3 t) = _
  rw [after0_3]
  funext y
  show (outsAt0 m c t.val t.isLt).1 y = G3 m c (((cfg0.win 3).blk t).view.emb y)
  have hy : (y : S1x256.Idx) = ix2 (y 0 : Fin 1) (y 1 : Fin 256) := eq_ix2 (n0 := 1) (n1 := 256) y
  calc (outsAt0 m c t.val t.isLt).1 y
      = (outsAt0 m c t.val t.isLt).1 (ix2 (y 0 : Fin 1) (y 1 : Fin 256)) := congrArg _ hy
    _ = G3 m c (((cfg0.win 3).blk t).view.emb (ix2 (y 0 : Fin 1) (y 1 : Fin 256))) := key _ _
    _ = G3 m c (((cfg0.win 3).blk t).view.emb y) :=
        congrArg (fun z : S1x256.Idx => G3 m c (((cfg0.win 3).blk t).view.emb z)) hy.symm

/-- An index of output one's array is in point `t`'s block iff each coordinate is in the block's range. -/
theorem mem_blk3 (t : Fin cfg0.N) (i : S1x512.Idx) :
    i ∈ ((cfg0.win 3).blk t).view.set ↔ ∀ a : Fin 2, win0_3.index t a * S1x256.size a ≤ (i a).val ∧ (i a).val < win0_3.index t a * S1x256.size a + S1x256.size a := by
  show i ∈ ((View.whole main_v7_0).slice (win0_3.rect t)).set ↔ _
  rw [View.set_slice_whole, Rect.mem_set_unit]
  exact Iff.rfl

/-- Output one's array after the run: class `j`'s contribution at `(0, j)`. -/
theorem final3 : (dats m 0 c).arrAt 3 cfg0.N = G3 m c :=
  (dats m 0 c).arrAt_eq_of_cover 3 (G3 m c) (fun t hf => flushed3_eq m c t hf) fun i => by
    have hi0 : (i 0).val < 1 := idx2_lt0 i
    have hi1 : (i 1).val < 512 := idx2_lt1 i
    have ht : (i 1).val / 256 * 16 + 15 < cfg0.N := by
      show _ < grid0.N; rw [N_0]; omega
    obtain ⟨-, -, -, -, -, -, e30, e31, e40, e41⟩ := idx_facts ⟨(i 1).val / 256 * 16 + 15, ht⟩
    refine ⟨⟨(i 1).val / 256 * 16 + 15, ht⟩, (flush0_3 _).mpr (by show ((i 1).val / 256 * 16 + 15) % 16 = 15; omega), ?_⟩
    rw [mem_blk3]
    intro a
    match a with
    | ⟨0, _⟩ =>
      show win0_3.index ⟨(i 1).val / 256 * 16 + 15, ht⟩ (0 : Fin 2) * 1 ≤ (i 0).val ∧ (i 0).val < win0_3.index ⟨(i 1).val / 256 * 16 + 15, ht⟩ (0 : Fin 2) * 1 + 1
      rw [e30]; omega
    | ⟨1, _⟩ =>
      show win0_3.index ⟨(i 1).val / 256 * 16 + 15, ht⟩ (1 : Fin 2) * 256 ≤ (i 1).val ∧ (i 1).val < win0_3.index ⟨(i 1).val / 256 * 16 + 15, ht⟩ (1 : Fin 2) * 256 + 256
      rw [e31]
      show ((i 1).val / 256 * 16 + 15) / 16 * 256 ≤ (i 1).val ∧ (i 1).val < ((i 1).val / 256 * 16 + 15) / 16 * 256 + 256
      omega

set_option maxRecDepth 200000 in
/-- What point `t` writes back into output two is its block of `G4`. -/
theorem flushed4_eq (t : Fin cfg0.N) (hf : (cfg0.win 4).flush t = true) :
    (dats m 0 c).flushed 4 t = ((cfg0.win 4).blk t).view.read (Elt Ideal) (G4 m c) := by
  have h15 : t.val % 16 = 15 := (flush0_4 t).mp hf
  obtain ⟨-, -, -, -, -, -, e30, e31, e40, e41⟩ := idx_facts t
  have hN : t.val < 32 := lt_of_lt_of_eq t.isLt (show cfg0.N = 32 from N_0)
  have key : ∀ (u : Fin 1) (q : Fin 256), (outsAt0 m c t.val t.isLt).2.1 (ix2 u q)
      = G4 m c (((cfg0.win 4).blk t).view.emb (ix2 u q)) := by
    intro u q
    obtain rfl : u = 0 := Subsingleton.elim _ _
    have hcol : ((((cfg0.win 4).blk t).view.emb (ix2 (0 : Fin 1) q)) 1).val = t.val / 16 * 256 + q.val := by
      show win0_4.index t (1 : Fin 2) * 256 + 1 * q.val = _
      rw [e41]; omega
    have hq : q.val < 256 := q.isLt
    refine ((out_vals m c t.val t.isLt h15 q ⟨t.val / 16 * 256 + q.val, by omega⟩ rfl).2).trans ?_
    exact (G4_of m c _ _ hcol).symm
  show (cfg0.win 4).cut (grid0.coords t) ((dats m 0 c).after 4 t) = _
  rw [after0_4]
  funext y
  show (outsAt0 m c t.val t.isLt).2.1 y = G4 m c (((cfg0.win 4).blk t).view.emb y)
  have hy : (y : S1x256.Idx) = ix2 (y 0 : Fin 1) (y 1 : Fin 256) := eq_ix2 (n0 := 1) (n1 := 256) y
  calc (outsAt0 m c t.val t.isLt).2.1 y
      = (outsAt0 m c t.val t.isLt).2.1 (ix2 (y 0 : Fin 1) (y 1 : Fin 256)) := congrArg _ hy
    _ = G4 m c (((cfg0.win 4).blk t).view.emb (ix2 (y 0 : Fin 1) (y 1 : Fin 256))) := key _ _
    _ = G4 m c (((cfg0.win 4).blk t).view.emb y) :=
        congrArg (fun z : S1x256.Idx => G4 m c (((cfg0.win 4).blk t).view.emb z)) hy.symm

/-- An index of output two's array is in point `t`'s block iff each coordinate is in the block's range. -/
theorem mem_blk4 (t : Fin cfg0.N) (i : S1x512.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v7_1).slice (win0_4.rect t)).set ↔ _
  rw [View.set_slice_whole, Rect.mem_set_unit]
  exact Iff.rfl

/-- Output two's array after the run: class `j`'s flag at `(0, j)`. -/
theorem final4 : (dats m 0 c).arrAt 4 cfg0.N = G4 m c :=
  (dats m 0 c).arrAt_eq_of_cover 4 (G4 m c) (fun t hf => flushed4_eq m c t hf) fun i => by
    have hi0 : (i 0).val < 1 := idx2_lt0 i
    have hi1 : (i 1).val < 512 := idx2_lt1 i
    have ht : (i 1).val / 256 * 16 + 15 < cfg0.N := by
      show _ < grid0.N; rw [N_0]; omega
    obtain ⟨-, -, -, -, -, -, e30, e31, e40, e41⟩ := idx_facts ⟨(i 1).val / 256 * 16 + 15, ht⟩
    refine ⟨⟨(i 1).val / 256 * 16 + 15, ht⟩, (flush0_4 _).mpr (by show ((i 1).val / 256 * 16 + 15) % 16 = 15; omega), ?_⟩
    rw [mem_blk4]
    intro a
    match a with
    | ⟨0, _⟩ =>
      show win0_4.index ⟨(i 1).val / 256 * 16 + 15, ht⟩ (0 : Fin 2) * 1 ≤ (i 0).val ∧ (i 0).val < win0_4.index ⟨(i 1).val / 256 * 16 + 15, ht⟩ (0 : Fin 2) * 1 + 1
      rw [e40]; omega
    | ⟨1, _⟩ =>
      show win0_4.index ⟨(i 1).val / 256 * 16 + 15, ht⟩ (1 : Fin 2) * 256 ≤ (i 1).val ∧ (i 1).val < win0_4.index ⟨(i 1).val / 256 * 16 + 15, ht⟩ (1 : Fin 2) * 256 + 256
      rw [e41]
      show ((i 1).val / 256 * 16 + 15) / 16 * 256 ≤ (i 1).val ∧ (i 1).val < ((i 1).val / 256 * 16 + 15) / 16 * 256 + 256
      omega

end Cert.KernelIdeal.Val

end
-- ==== Proof.KernelTail.lean ====
/-
  The kernel program's host operations after its region, as one function of the two row arrays the region leaves,
  read at its one index: the total of the first row divided by the larger of the total of the second row and one.
  A reduction by addition into the rank-0 shape is the initial value plus the sum over every index of the operand;
  the initial value is the zero pattern; the index set of a [1, 512] array is the product of a singleton and the 512
  columns, so the total is the sum over the columns of row 0.
-/
import proofs.«159314_j29618094474149_2_alg».proof.KernelIdeal
import proofs.«159314_j29618094474149_2_alg».proof.Proof.Gen.KernelIdeal
import proofs.«159314_j29618094474149_2_alg».proof.Proof.Consts
import Idealize.ShloMosaic.Lib.ValueIdx
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-- The host operations after the region: both row arrays summed over every axis from zero, the second total floored
    at one, and the quotient of the two. -/
def tailFn (A3 A4 : FVec Ideal S1x512 .f32) : FVec Ideal S_ .f32 :=
  Host.divf (F := Ideal)
    (Host.reduceAdd (F := Ideal) A3 (constant (F := Ideal) S_ .f32 0x00000000#32) reducesTo_S1x512_S_d0_1 h_S_)
    (maximumf (F := Ideal)
      (Host.reduceAdd (F := Ideal) A4 (constant (F := Ideal) S_ .f32 0x00000000#32) reducesTo_S1x512_S_d0_1 h_S_)
      (constant (F := Ideal) S_ .f32 0x3F800000#32))

/-- The total of a [1, 512] array from zero is the sum of its row 0 over the 512 columns. -/
theorem total_row (A : FVec Ideal S1x512 .f32) :
    Host.reduceAdd (F := Ideal) A (constant (F := Ideal) S_ .f32 0x00000000#32) reducesTo_S1x512_S_d0_1 h_S_ ix0
      = ∑ j : Fin 512, A (ix2 0 j) := by
  show Ideal.hostReduceAdd reducesTo_S1x512_S_d0_1 A (Ideal.ofBits .f32 0x00000000#32) ix0 = _
  rw [Ideal.hostReduceAdd_total _ (fun b => b.elim0), Ideal.ofBits_zero_f32, zero_add, sum_idx2, Fin.sum_univ_one]

/-- The tail read at its one index. -/
theorem tailFn_apply (A3 A4 : FVec Ideal S1x512 .f32) :
    tailFn A3 A4 ix0 = Ideal.div (∑ j : Fin 512, A3 (ix2 0 j)) (max (∑ j : Fin 512, A4 (ix2 0 j)) 1) := by
  show Ideal.div
      (Host.reduceAdd (F := Ideal) A3 (constant (F := Ideal) S_ .f32 0x00000000#32) reducesTo_S1x512_S_d0_1 h_S_ ix0)
      (max (Host.reduceAdd (F := Ideal) A4 (constant (F := Ideal) S_ .f32 0x00000000#32) reducesTo_S1x512_S_d0_1 h_S_ ix0)
        (Ideal.ofBits .f32 0x3F800000#32)) = _
  rw [total_row, total_row, Cert.Consts.ofBits_one]

end Cert.KernelIdeal.Val

end
-- ==== Proof.KernelDelta.lean ====
/-
  The margin row the kernel's region reads is the reference's margin vector.  Before its region the kernel program
  slices column 0 of the [512, 2] argument, flattens it, raises it to the power 0.25, takes the reciprocal and
  reshapes the [512] result to [1, 512]; the reference computes the same [512] vector from its own copy of the
  argument.  A [512] array reshaped to [1, 512] reads, at (0, j), the operand at j.
-/
import proofs.«159314_j29618094474149_2_alg».proof.Proof.Gen.KernelIdeal.Frame
import proofs.«159314_j29618094474149_2_alg».proof.Proof.RefRead
import Idealize.ShloMosaic.Lib.Pipeline.Value
import Idealize.ShloMosaic.Lib.ValueLayout
import Idealize.ShloMosaic.Lib.StableHlo.Run

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- What the [1, 512] margin buffer holds when the region is entered: the reference's margin vector, reshaped. -/
theorem V_main_v6 (c : Dev nD) :
    (V m c main_v6 : S1x512.Idx → EReal)
      = shapeCast S1x512 (Cert.ReferenceIdeal.ReadP.val_main_v5 (F := Ideal) (m ((c : Thread nD τ).loc main_arg2)))
          shapeCasts_S512_S1x512 := by
  show StableHlo.after hostOps0 (fun b => m (c, b)) (Proc.devRef .tc main_v6) = _
  after_results
  rfl

/-- The margin row at column `j` is the reference's margin of class `j`. -/
theorem delta_apply (c : Dev nD) (j : Fin 512) :
    (V m c main_v6 : S1x512.Idx → EReal) (ix2 0 j)
      = Cert.ReferenceIdeal.ReadP.val_main_v5 (F := Ideal) (m ((c : Thread nD τ).loc main_arg2)) (ix1 j) :=
  (congrFun (V_main_v6 m c) (ix2 0 j)).trans (shapeCast_a_1a_apply _ _ 0 j)

end Cert.KernelIdeal.Val

end
-- ==== Proof.Algebra.lean ====
/-
  The blocked and the direct spelling of the loss agree once every label is the word 0 or the word 1.

  Row by row: on a positive row the folded argument `d + (0 - p)` is `d - p` and the positive indicator is 1; on a
  negative row the positive indicator is 0 and a product with 0 vanishes for every extended real, infinite or not.
  For the other rows `1 - positive indicator` is the negative indicator (both 0 at the word 1, both 1 at the word 0),
  and `d + p = p + d`.  The two indicators take the real values 0 and 1, so the counts are coercions of real sums;
  over the reals `Σ (1 - f) = 32768 - Σ f`, which is the negative count written as the batch size minus the positive
  count.  Summing the 0/1 class flag counts the valid classes, and the maximum of two coerced naturals is the
  coerced maximum, so the denominators agree as well.
-/
import proofs.«159314_j29618094474149_2_alg».proof.Proof.Spec

noncomputable section

open scoped BigOperators

namespace Cert.Margin

open Idealize.ShloMosaic

namespace Alg

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem posm_zero : posm (0#32) = 0 := by
  unfold posm; rw [if_neg (by decide)]

theorem posm_one : posm (1#32) = 1 := by
  unfold posm; rw [if_pos rfl]

theorem negm_zero : negm (0#32) = 1 := by
  unfold negm; rw [if_pos rfl]

theorem negm_one : negm (1#32) = 0 := by
  unfold negm; rw [if_neg (by decide)]

/-- The positive indicator is the coercion of a real 0/1 value. -/
theorem posm_eq_coe (l : BitVec 32) : posm l = (((if l = 1#32 then 1 else 0 : ℝ)) : EReal) := by
  unfold posm; split_ifs <;> simp

/-- On a binary label the negative indicator is one minus the positive one, already over the reals. -/
theorem negm_eq_coe {l : BitVec 32} (h : l = 0#32 ∨ l = 1#32) :
    negm l = ((1 - (if l = 1#32 then 1 else 0 : ℝ) : ℝ) : EReal) := by
  rcases h with rfl | rfl
  · rw [negm_zero, if_neg (by decide), sub_zero, EReal.coe_one]
  · rw [negm_one, if_pos rfl, sub_self, EReal.coe_zero]

theorem one_sub_one : (1 : EReal) - 1 = 0 := by
  rw [← EReal.coe_one, ← EReal.coe_sub, sub_self, EReal.coe_zero]

/-- A positive-row summand: the folded argument is `d - p` where the indicator does not vanish. -/
theorem term_pos (d p : EReal) {l : BitVec 32} (h : l = 0#32 ∨ l = 1#32) :
    sp (kArg d p l) * posm l = sp (d - p) * posm l := by
  rcases h with rfl | rfl
  · rw [posm_zero, mul_zero, mul_zero]
  · have hk : kArg d p (1#32) = d - p := by
      unfold kArg; rw [if_pos rfl, zero_sub, sub_eq_add_neg]
    rw [hk]

/-- A negative-row summand: `1 - positive indicator` is the negative indicator, and the folded argument is
    `p + d` where that does not vanish. -/
theorem term_neg (d p : EReal) {l : BitVec 32} (h : l = 0#32 ∨ l = 1#32) :
    sp (kArg d p l) * (1 - posm l) = sp (p + d) * negm l := by
  rcases h with rfl | rfl
  · have hk : kArg d p (0#32) = p + d := by
      unfold kArg; rw [if_neg (by decide), add_comm]
    rw [hk, posm_zero, negm_zero, sub_zero]
  · rw [posm_one, negm_one, one_sub_one, mul_zero, mul_zero]

variable (pred : Fin 32768 → Fin 512 → EReal) (lab : Fin 32768 → Fin 512 → BitVec 32) (dl : Fin 512 → EReal)

theorem kS0_eq_rS0 (hbin : ∀ r j, lab r j = 0#32 ∨ lab r j = 1#32) (j : Fin 512) :
    kS0 pred lab dl j = rS0 pred lab dl j :=
  Finset.sum_congr rfl fun r _ => term_pos (dl j) (pred r j) (hbin r j)

theorem kS1_eq_rS1 (hbin : ∀ r j, lab r j = 0#32 ∨ lab r j = 1#32) (j : Fin 512) :
    kS1 pred lab dl j = rS1 pred lab dl j :=
  Finset.sum_congr rfl fun r _ => term_neg (dl j) (pred r j) (hbin r j)

theorem kP_eq_rP (j : Fin 512) : kP lab j = rP lab j := rfl

/-- The batch size minus the positive count is the negative count. -/
theorem kN_eq_rN (hbin : ∀ r j, lab r j = 0#32 ∨ lab r j = 1#32) (j : Fin 512) :
    kN lab j = rN lab j := by
  have hR : (32768 : ℝ) - ∑ r : Fin 32768, (if lab r j = 1#32 then 1 else 0 : ℝ)
      = ∑ r : Fin 32768, (1 - (if lab r j = 1#32 then 1 else 0 : ℝ)) := by
    rw [Finset.sum_sub_distrib, Finset.sum_const, Finset.card_univ, Fintype.card_fin, nsmul_eq_mul, mul_one,
      Nat.cast_ofNat]
  unfold kN kP rN
  rw [Finset.sum_congr rfl (fun r _ => posm_eq_coe (lab r j)),
    Finset.sum_congr rfl (fun r _ => negm_eq_coe (hbin r j)), ← coe_sum, ← coe_sum, ← EReal.coe_sub, hR]

theorem kValid_iff_rValid (hbin : ∀ r j, lab r j = 0#32 ∨ lab r j = 1#32) (j : Fin 512) :
    kValid lab j ↔ rValid lab j := by
  unfold kValid rValid
  rw [kN_eq_rN lab hbin j, kP_eq_rP lab j]

theorem kVal_eq_rVal (hbin : ∀ r j, lab r j = 0#32 ∨ lab r j = 1#32) (j : Fin 512) :
    kVal pred lab dl j = rVal pred lab dl j := by
  unfold kVal rVal
  rw [if_congr (kValid_iff_rValid lab hbin j) rfl rfl, kS0_eq_rS0 pred lab dl hbin j, kS1_eq_rS1 pred lab dl hbin j,
    kN_eq_rN lab hbin j, kP_eq_rP lab j]

/-- Summing the 0/1 flag counts the valid classes. -/
theorem sum_kFlag (hbin : ∀ r j, lab r j = 0#32 ∨ lab r j = 1#32) :
    ∑ j : Fin 512, kFlag lab j = (((rCount lab : ℕ) : ℝ) : EReal) := by
  have h : ∀ j, kFlag lab j = (((if rValid lab j then 1 else 0 : ℝ)) : EReal) := by
    intro j
    unfold kFlag
    rw [if_congr (kValid_iff_rValid lab hbin j) rfl rfl]
    split_ifs <;> simp
  rw [Finset.sum_congr rfl (fun j _ => h j), ← coe_sum, Finset.sum_boole]
  rfl

/-- The maximum of a coerced natural and one is the coerced maximum. -/
theorem max_coe_nat_one (n : ℕ) : max (((n : ℕ) : ℝ) : EReal) 1 = (((max n 1 : ℕ) : ℝ) : EReal) := by
  rw [Nat.cast_max, EReal.coe_strictMono.monotone.map_max, Nat.cast_one, EReal.coe_one]

end Alg

/-- The two spellings of the loss agree when every label is 0 or 1. -/
theorem kOut_eq_rOut (pred : Fin 32768 → Fin 512 → EReal) (lab : Fin 32768 → Fin 512 → BitVec 32) (dl : Fin 512 → EReal)
    (hbin : ∀ r j, lab r j = 0#32 ∨ lab r j = 1#32) : kOut pred lab dl = rOut pred lab dl := by
  unfold kOut rOut
  rw [Alg.sum_kFlag lab hbin, Alg.max_coe_nat_one,
    Finset.sum_congr rfl (fun j _ => Alg.kVal_eq_rVal pred lab dl hbin j)]

end Cert.Margin

end
-- ==== Proof.KernelValue.lean ====
/-
  The kernel program's result is the direct spelling of the loss.

  The region's two output arrays hold every class's contribution and flag (blocked spelling); the host operations
  after the region sum each array over its 512 classes and divide the first sum by the second floored at one: the
  blocked spelling of the loss.  With every label 0 or 1 this is the direct spelling, over the same scores, labels
  and margins — the arrays as launched, since no host operation before the region writes an argument, and the
  margin row is the reference's margin vector reshaped.
-/
import proofs.«159314_j29618094474149_2_alg».proof.Proof.KernelFinal
import proofs.«159314_j29618094474149_2_alg».proof.Proof.KernelTail
import proofs.«159314_j29618094474149_2_alg».proof.Proof.KernelDelta
import proofs.«159314_j29618094474149_2_alg».proof.Proof.Algebra
import proofs.«159314_j29618094474149_2_alg».proof.Proof.PreLabels
import proofs.«159314_j29618094474149_2_alg».proof.Proof.RefRead

noncomputable section

open scoped BigOperators
open Idealize.ShloMosaic Idealize.ShloMosaic.TcCoe Idealize.SL.Sem Idealize.ShloMosaic.ValueIdx

namespace Cert.KernelIdeal.Val

open Cert.KernelIdeal Cert.KernelIdeal.Gen Cert.Margin

variable (m : (ℓ : Loc nD τ sig) → Buf (Elt Ideal) ℓ) (c : Dev nD)

/-- The scores the region reads are the launched ones. -/
theorem predA_eq : predA m c = fun r j => (m ((c.tc : Thread nD τ).loc main_arg0) : S32768x512.Idx → EReal) (ix2 r j) := by
  funext r j; unfold predA; rw [V_main_arg0]
/-- The labels the region reads are the launched ones. -/
theorem labA_eq : labA m c = fun r j => (m ((c.tc : Thread nD τ).loc main_arg1) : S32768x512.Idx → BitVec 32) (ix2 r j) := by
  funext r j; unfold labA; rw [V_main_arg1]
/-- The margins the region reads are the reference's margin vector of the launched class sizes. -/
theorem dlA_eq : dlA m c = fun j => Cert.ReferenceIdeal.ReadP.val_main_v5 (F := Ideal) (m ((c.tc : Thread nD τ).loc main_arg2)) (ix1 j) := by
  funext j; unfold dlA; exact delta_apply m c j

/-- The kernel program's result, when every launched label is 0 or 1: the direct spelling of the loss. -/
theorem kernel_value (hbin : ∀ i, (m ((c.tc : Thread nD τ).loc main_arg1) : S32768x512.Idx → BitVec 32) i = 0#32
      ∨ (m ((c.tc : Thread nD τ).loc main_arg1) : S32768x512.Idx → BitVec 32) i = 1#32) :
    tailFn (G3 m c) (G4 m c) ix0
      = rOut (fun r j => (m ((c.tc : Thread nD τ).loc main_arg0) : S32768x512.Idx → EReal) (ix2 r j))
          (fun r j => (m ((c.tc : Thread nD τ).loc main_arg1) : S32768x512.Idx → BitVec 32) (ix2 r j))
          (fun j => Cert.ReferenceIdeal.ReadP.val_main_v5 (F := Ideal) (m ((c.tc : Thread nD τ).loc main_arg2)) (ix1 j)) := by
  rw [tailFn_apply]
  have h3 : (∑ j : Fin 512, G3 m c (ix2 0 j)) = ∑ j : Fin 512, kVal (predA m c) (labA m c) (dlA m c) j :=
    Finset.sum_congr rfl fun j _ => G3_of m c _ j rfl
  have h4 : (∑ j : Fin 512, G4 m c (ix2 0 j)) = ∑ j : Fin 512, kFlag (labA m c) j :=
    Finset.sum_congr rfl fun j _ => G4_of m c _ j rfl
  rw [h3, h4]
  have hk : Ideal.div (∑ j : Fin 512, kVal (predA m c) (labA m c) (dlA m c) j) (max (∑ j : Fin 512, kFlag (labA m c) j) 1)
      = kOut (predA m c) (labA m c) (dlA m c) := rfl
  rw [hk, kOut_eq_rOut _ _ _ (fun r j => by rw [labA_eq]; exact hbin (ix2 r j)), predA_eq, labA_eq, dlA_eq]

end Cert.KernelIdeal.Val

end
-- ==== Proof.KernelTailRun.lean ====
/-
  The kernel program's run, read at its result.

  The program is a few host operations, one blocked region that leaves two row arrays, and a tail of host operations
  on those two arrays: each summed over every axis from zero, the second total floored at one, and the quotient of
  the two. Its run ends with every buffer the region does not stage at what the tail's operations compute from the
  region's exit contents, and the region's arrays at their final values. So, given what the two row arrays end
  holding, the result buffer is the tail function of those two arrays (`tail_value`), and the three argument buffers
  are as launched (`kernel_run`, which states all four of the whole run).
-/
import proofs.«159314_j29618094474149_2_alg».proof.Proof.Gen.KernelIdeal.Frame
import proofs.«159314_j29618094474149_2_alg».proof.Proof.KernelTail
import Idealize.ShloMosaic.Lib.Pipeline.Value
import Idealize.ShloMosaic.Lib.StableHlo.Run

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The program's result buffer after the host operations that follow the region, given what the region's two output
    arrays end holding: the tail function of those two arrays. Each operation's result is its function of its
    operands' contents; the two reductions read the region's arrays, which the region leaves at their final values. -/
theorem tail_value (c : Dev nD) (G3 G4 : S1x512.Idx → EReal)
    (h3 : (dats m 0 c).arrAt 3 cfg0.N = G3) (h4 : (dats m 0 c).arrAt 4 cfg0.N = G4) :
    Pipeline.afterTail₀ cfgs (dats m) 0 (V0 m) [hostOps1] c main_v11 = tailFn G3 G4 := by
  unfold Pipeline.afterTail₀
  show StableHlo.after hostOps1 _ (Proc.devRef .tc main_v11) = _
  after_results
  have e3 : Pipeline.withArrays (cfgs 0).spec c (V0 m c) (fun w => (dats m 0 c).arrAt w (cfgs 0).N)
      (Proc.devRef .tc main_v7_0) = G3 :=
    (Pipeline.withArrays_arr spec0 launch0.win.arr_inj c _ _ 3).trans h3
  have e4 : Pipeline.withArrays (cfgs 0).spec c (V0 m c) (fun w => (dats m 0 c).arrAt w (cfgs 0).N)
      (Proc.devRef .tc main_v7_1) = G4 :=
    (Pipeline.withArrays_arr spec0 launch0.win.arr_inj c _ _ 4).trans h4
  rw [e3, e4]
  rfl

/-- The whole program's run, read at its result and at its three arguments: every execution ends with the result
    buffer at the tail function of the two output arrays' final values, and the arguments as launched. -/
theorem kernel_run (G3 G4 : Dev nD → S1x512.Idx → EReal)
    (h3 : ∀ c, (dats m 0 c).arrAt 3 cfg0.N = G3 c) (h4 : ∀ c, (dats m 0 c).arrAt 4 cfg0.N = G4 c) :
    θ_run defs (onTc (τ := τ) (main (F := Ideal))) ⟨m, fun _ => 0, ρ⟩ (fun r => ∀ c : Dev nD,
      r.2.mem ((c.tc : Thread nD τ).loc main_v11) = tailFn (G3 c) (G4 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v11 (Pipeline.mem_restRefs_of main_v11 (by decide) (by decide))).trans
        (tail_value m c _ _ (h3 c) (h4 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans
        (W_main_arg2 m (dats m) c)⟩) (run_main m ρ)

end Cert.KernelIdeal.Val

end
-- ==== Proof.lean ====
/-
  A binary-label margin loss: the Pallas kernel against its jnp reference, over the extended reals.

  For scores `pred : [32768, 512]`, labels `true : [32768, 512]` (the word 1 positive, the word 0 negative) and class
  sizes `c_nums : [512, 2]`, the class margin is `1 / c_nums[:, 0] ^ 0.25`, a class's positive term is the mean over
  its positive rows of `softplus (margin - pred)`, its negative term the mean over its negative rows of
  `softplus (pred + margin)`, a class counts only when it has rows of both labels, and the loss is the sum of the
  counted classes' two terms divided by their number (at least one).

  The kernel walks a grid of two class blocks by sixteen batch tiles, keeps three running column sums in scratch
  rows, folds the sign of the score into one softplus argument, takes the negative indicator as one minus the
  positive indicator and the negative count as the batch size minus the positive count, and leaves the final sum
  over classes and the division to the host.  The reference tests the label against 0 for the negative indicator
  and sums it for the negative count.  The two agree exactly when every label is 0 or 1 — the statement's
  precondition — and then agree as extended reals whatever the scores: only the monoid laws of addition and
  `x * 0 = 0` are used on the scores, so the finiteness of the float inputs is not needed.

  The modules: `Spec` states both spellings of the loss; `Algebra` proves them equal on binary labels;
  `PreLabels` reads the binary labels off the precondition; `KernelPieces`, `KernelTile`, `KernelAccum`,
  `KernelFinal`, `KernelTail`, `KernelTailRun`, `KernelDelta`, `KernelValue` read the kernel program's run as the
  blocked spelling; `RefValue` reads the reference program's run as the direct spelling.  The kernel's frames are
  the generated ones; the reference's frame is its run with the result dropped; the idealization rewrote nothing.
-/
import proofs.«159314_j29618094474149_2_alg».proof.Defs
import proofs.«159314_j29618094474149_2_alg».proof.Proof.Gen.Kernel
import proofs.«159314_j29618094474149_2_alg».proof.Proof.Gen.Kernel.Skeleton
import proofs.«159314_j29618094474149_2_alg».proof.Proof.Gen.Kernel.Launch
import proofs.«159314_j29618094474149_2_alg».proof.Proof.Gen.Kernel.Points
import proofs.«159314_j29618094474149_2_alg».proof.Proof.Gen.Kernel.Frame
import proofs.«159314_j29618094474149_2_alg».proof.Proof.Gen.KernelIdeal
import proofs.«159314_j29618094474149_2_alg».proof.Proof.Gen.KernelIdeal.Skeleton
import proofs.«159314_j29618094474149_2_alg».proof.Proof.Gen.KernelIdeal.Launch
import proofs.«159314_j29618094474149_2_alg».proof.Proof.Gen.KernelIdeal.Points
import proofs.«159314_j29618094474149_2_alg».proof.Proof.Gen.KernelIdeal.Frame
import proofs.«159314_j29618094474149_2_alg».proof.Proof.Gen.ReferenceIdeal
import proofs.«159314_j29618094474149_2_alg».proof.Proof.Gen.Pre_finite_inputs
import proofs.«159314_j29618094474149_2_alg».proof.Proof.RefRun
import proofs.«159314_j29618094474149_2_alg».proof.Proof.RefRead
import proofs.«159314_j29618094474149_2_alg».proof.Proof.RefValue
import proofs.«159314_j29618094474149_2_alg».proof.Proof.PreLabels
import proofs.«159314_j29618094474149_2_alg».proof.Proof.KernelValue
import proofs.«159314_j29618094474149_2_alg».proof.Proof.KernelTailRun
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end at the direct spelling of the loss of the launched arrays, which agree. -/
theorem algebraic : Cert.algebraic_KernelIdeal_ReferenceIdeal := by
  intro m ρ m' ρ' hpre hagree
  refine ⟨fun c => Cert.KernelIdeal.Val.tailFn (Cert.KernelIdeal.Val.G3 m c) (Cert.KernelIdeal.Val.G4 m c),
    Cert.KernelIdeal.Val.kernel_run m ρ (Cert.KernelIdeal.Val.G3 m) (Cert.KernelIdeal.Val.G4 m)
      (Cert.KernelIdeal.Val.final3 m) (Cert.KernelIdeal.Val.final4 m), ?_⟩
  refine (θ_run Cert.ReferenceIdeal.defs _ _).mono (fun _ h c => ⟨(h c).1.trans ?_, (h c).2⟩)
    (Cert.ReferenceIdeal.ValueP.run (F := Ideal) m' ρ')
  funext i
  rw [eq_ix0 i, Cert.ReferenceIdeal.ReadP.val_main_v44_eq, Cert.Margin.ref_value]
  show _ = Cert.KernelIdeal.Val.tailFn (Cert.KernelIdeal.Val.G3 m c) (Cert.KernelIdeal.Val.G4 m c) ix0
  rw [Cert.KernelIdeal.Val.kernel_value m c (Cert.Margin.labels_binary _ _ _ (hpre c)),
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
